-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x16 : Shape := ⟨2, ![128, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S16 .f32) (main_arg6 : FVec F S16x40 .f32) (main_arg7 : FVec F S40 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x40 .f32 := Host.absf main_arg6
  let main_cst_8 : FVec F S_ .f32 := constant S_ .f32 0x7F800000#32
  let main_v25 : FVec F S16x40 .f32 := broadcastInDim S16x40 ![] bcast_S_S16x40 main_cst_8
  let main_v26 : IVec S16x40 1 := cmpf .olt main_v24 main_v25
  let main_c_9 : IVec S_ 1 := constantI S_ 1 1#1
  let main_v27 : IVec S_ 1 := (fun x v => Host.reduce IntOp.andi x v reducesTo_S16x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x512 .f32) (main_arg1 : IVec S2x1600000 32) (main_arg2 : FVec F S512x128 .f32) (main_arg3 : FVec F S128 .f32) (main_arg4 : FVec F S128x16 .f32) (main_arg5 : FVec F S16 .f32) (main_arg6 : FVec F S16x40 .f32) (main_arg7 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg5 main_arg6 main_arg7 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x16 : Shape := ⟨2, ![128, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S4000x512 : Shape := ⟨2, ![4000, 512]⟩
abbrev S4000x128 : Shape := ⟨2, ![4000, 128]⟩
abbrev S1700000x128 : Shape := ⟨2, ![1700000, 128]⟩
abbrev S1x128 : Shape := ⟨2, ![1, 128]⟩
abbrev S100000x16 : Shape := ⟨2, ![100000, 16]⟩
abbrev S10000x128 : Shape := ⟨2, ![10000, 128]⟩
abbrev S10000x16 : Shape := ⟨2, ![10000, 16]⟩
abbrev S1700000x16 : Shape := ⟨2, ![1700000, 16]⟩
abbrev S1x16 : Shape := ⟨2, ![1, 16]⟩
abbrev S1x40 : Shape := ⟨2, ![1, 40]⟩
abbrev S100000x40 : Shape := ⟨2, ![100000, 40]⟩
abbrev S10000x40 : Shape := ⟨2, ![10000, 40]⟩
abbrev S10000 : Shape := ⟨1, ![10000]⟩
abbrev S10000x1 : Shape := ⟨2, ![10000, 1]⟩

abbrev nBuf : Space → Nat
  | .hbm => 86
  | .vmem => 18
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S16x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x16, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x16, .f32⟩
  | .hbm, ⟨76, _⟩ => ⟨S1700000x1, .f32⟩
  | .hbm, ⟨77, _⟩ => ⟨S1700000x16, .f32⟩
  | .hbm, ⟨78, _⟩ => ⟨S1700000x16, .f32⟩
  | .hbm, ⟨79, _⟩ => ⟨S_, .f32⟩
  | .hbm, ⟨80, _⟩ => ⟨S100000x16, .f32⟩
  | .hbm, ⟨81, _⟩ => ⟨S1700000x1, .i32⟩
  | .hbm, ⟨82, _⟩ => ⟨S100000x16, .f32⟩
  | .hbm, ⟨83, _⟩ => ⟨S1x16, .f32⟩
  | .hbm, ⟨84, _⟩ => ⟨S1x40, .f32⟩
  | .hbm, ⟨85, _⟩ => ⟨S100000x40, .f32⟩
  | .local _ .vmem, ⟨0, _⟩ => ⟨S4000x512, .f32⟩
  | .local _ .vmem, ⟨1, _⟩ => ⟨S4000x512, .f32⟩
  | .local _ .vmem, ⟨2, _⟩ => ⟨S512x128, .f32⟩
  | .local _ .vmem, ⟨3, _⟩ => ⟨S4000x128, .f32⟩
  | .local _ .vmem, ⟨4, _⟩ => ⟨S4000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S16x40, .f32⟩
  | .local _ .vmem, ⟨15, _⟩ => ⟨S1x40, .f32⟩
  | .local _ .vmem, ⟨16, _⟩ => ⟨S10000x40, .f32⟩
  | .local _ .vmem, ⟨17, _⟩ => ⟨S10000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S4000x128_S4000x128_0_0 : ∀ a, (![0, 0] : Fin 2 → Nat) a + S4000x128.size a ≤ S4000x128.size a
  h_S4000x128 : 0 < S4000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S40_S1x40 : S40.ShapeCasts S1x40
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x40_S16x40_0_0 : ∀ a, (![0, 0] : Fin 2 → Nat) a + S16x40.size a ≤ S16x40.size a
  h_S16x40 : 0 < S16x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x512_S512x128_S4000x128_1_0_0_1_n_n_wf : DotDims.WF S4000x512 S512x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x16_S10000x16_1_0_0_1_n_n_wf : DotDims.WF S10000x128 S128x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S10000x16_S16x40_S10000x40_1_0_0_1_n_n_wf : DotDims.WF S10000x16 S16x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x16.size a ≤ S128x16.size a
  hwx1_2 : ∀ i : grid1.Coords, EltTy.bits .f32 = 32 ∨ (Rect.block (s := S128x16) S128x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x40.size a ≤ S16x40.size a
  hwx2_2 : ∀ i : grid2.Coords, EltTy.bits .f32 = 32 ∨ (Rect.block (s := S16x40) S16x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x40.size a ≤ S100000x40.size a
  hwx2_4 : ∀ i : grid2.Coords, EltTy.bits .f32 = 32 ∨ (Rect.block (s := S100000x40) S10000x40.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S16x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S10000x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x16 : Shape := ⟨2, ![128, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x16 : Shape := ⟨2, ![100000, 16]⟩
abbrev S1700000x16 : Shape := ⟨2, ![1700000, 16]⟩
abbrev S1x16 : Shape := ⟨2, ![1, 16]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 113
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S16x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x16, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x16, .f32⟩
  | .hbm, ⟨81, _⟩ => ⟨S1700000x1, .f32⟩
  | .hbm, ⟨82, _⟩ => ⟨S1700000x16, .f32⟩
  | .hbm, ⟨83, _⟩ => ⟨S1700000x16, .f32⟩
  | .hbm, ⟨84, _⟩ => ⟨S_, .f32⟩
  | .hbm, ⟨85, _⟩ => ⟨S100000x16, .f32⟩
  | .hbm, ⟨86, _⟩ => ⟨S1700000x1, .i32⟩
  | .hbm, ⟨87, _⟩ => ⟨S100000x16, .f32⟩
  | .hbm, ⟨88, _⟩ => ⟨S1x16, .f32⟩
  | .hbm, ⟨89, _⟩ => ⟨S100000x16, .f32⟩
  | .hbm, ⟨90, _⟩ => ⟨S100000x16, .f32⟩
  | .hbm, ⟨91, _⟩ => ⟨S_, .f32⟩
  | .hbm, ⟨92, _⟩ => ⟨S100000x16, .f32⟩
  | .hbm, ⟨93, _⟩ => ⟨S100000x16, .f32⟩
  | .hbm, ⟨94, _⟩ => ⟨S100000x40, .f32⟩
  | .hbm, ⟨95, _⟩ => ⟨S1x40, .f32⟩
  | .hbm, ⟨96, _⟩ => ⟨S100000x40, .f32⟩
  | .hbm, ⟨97, _⟩ => ⟨S100000x40, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S100000, .f32⟩
  | .hbm, ⟨102, _⟩ => ⟨S100000, .f32⟩
  | .hbm, ⟨103, _⟩ => ⟨S100000x1, .f32⟩
  | .hbm, ⟨104, _⟩ => ⟨S100000x40, .f32⟩
  | .hbm, ⟨105, _⟩ => ⟨S100000x40, .f32⟩
  | .hbm, ⟨106, _⟩ => ⟨S100000x40, .f32⟩
  | .hbm, ⟨107, _⟩ => ⟨S_, .f32⟩
  | .hbm, ⟨108, _⟩ => ⟨S100000, .f32⟩
  | .hbm, ⟨109, _⟩ => ⟨S100000x1, .f32⟩
  | .hbm, ⟨110, _⟩ => ⟨S100000x1, .f32⟩
  | .hbm, ⟨111, _⟩ => ⟨S100000x40, .f32⟩
  | .hbm, ⟨112, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call3_cst : Ref sig .tc := ⟨.hbm, 98, rfl⟩
abbrev main_call3_v0 : Ref sig .tc := ⟨.hbm, 99, rfl⟩
abbrev main_call3_cst_0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_v6 : Ref sig .tc := ⟨.hbm, 106, rfl⟩
abbrev main_call3_cst_1 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_v70 : Ref sig .tc := ⟨.hbm, 112, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x128_S100000x128_1_0_0_1_n_n_wf : DotDims.WF S100000x512 S512x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x16_S100000x16_1_0_0_1_n_n_wf : DotDims.WF S100000x128 S128x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x40_S100000x40_1_0_0_1_n_n_wf : DotDims.WF S100000x16 S16x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf

class Facts : Prop extends Facts₀ where

variable [Facts]
-- ==== Proof.KernelRun.lean ====
/-
  The kernel's run with its result read.

  The program is three kernel regions among stretches of host operations. Its run is the chain of its segments from
  the launch memory: after the last region every buffer that is not a kernel's scratch holds the last boundary's
  contents, and in particular the result buffer holds what the third region's write-backs leave in its output array,
  while no segment writes an argument array.
-/
import proofs.«164419_j34832184770970_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument array as launched. -/
theorem run_out : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.ValueRun

end
-- ==== Proof.HostA.lean ====
/-
  The host side of the kernel's program, first part: the graph's normalisation.

  Before the first kernel region the program computes, from the edge list alone: the source and destination node of
  every edge with one self-loop per node appended, the degree of every node (a scatter-add of ones over the
  destinations), the inverse square root of the positive degrees, and for every edge the product of that quantity at
  its two ends. The reference computes the same values by the same operations; they are named here by the reference's
  own stage functions, as values of the edge list, at every boundary of the program where they are read later.
-/
import proofs.«164419_j34832184770970_1_alg».proof.Proof.Gen.KernelIdeal.Frame
import proofs.«164419_j34832184770970_1_alg».proof.Proof.RefReadP

set_option maxRecDepth 16384

noncomputable section

namespace Cert.KernelIdeal.HostA

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## After the first stretch: sources, destinations, and the two operands of the `where` -/

theorem v3_1 (c : Dev nD) : W1 m ρ c (Proc.devRef .tc main_v3) = Cert.ReferenceIdeal.ReadP.val_main_v3 (F := Ideal) (m ((c : Thread nD τ).loc main_arg1)) := by
  show after hostOps0 (W0 m ρ c) (Proc.devRef .tc main_v3) = _
  after_results_simp
  rfl

theorem v6_1 (c : Dev nD) : W1 m ρ c (Proc.devRef .tc main_v6) = Cert.ReferenceIdeal.ReadP.val_main_v6 (F := Ideal) (m ((c : Thread nD τ).loc main_arg1)) := by
  show after hostOps0 (W0 m ρ c) (Proc.devRef .tc main_v6) = _
  after_results_simp
  rfl

theorem v12_1 (c : Dev nD) : W1 m ρ c (Proc.devRef .tc main_v12) = Cert.ReferenceIdeal.ReadP.val_main_v12 (F := Ideal) (m ((c : Thread nD τ).loc main_arg1)) := by
  show after hostOps0 (W0 m ρ c) (Proc.devRef .tc main_v12) = _
  after_results_simp
  rfl

theorem v13_1 (c : Dev nD) : W1 m ρ c (Proc.devRef .tc main_v13) = Cert.ReferenceIdeal.ReadP.val_main_v13 (F := Ideal) (m ((c : Thread nD τ).loc main_arg1)) := by
  show after hostOps0 (W0 m ρ c) (Proc.devRef .tc main_v13) = _
  after_results_simp
  rfl

theorem cst2_1 (c : Dev nD) : W1 m ρ c (Proc.devRef .tc main_cst_2) = Cert.ReferenceIdeal.ReadP.val_main_cst_2 (F := Ideal) := by
  show after hostOps0 (W0 m ρ c) (Proc.devRef .tc main_cst_2) = _
  after_results_simp
  rfl

/-! ## After the `where`: the inverse square root of the positive degrees -/

theorem v14_2 (c : Dev nD) : W2 m ρ c (Proc.devRef .tc main_v14) = Cert.ReferenceIdeal.ReadP.val_main_v14 (F := Ideal) (m ((c : Thread nD τ).loc main_arg1)) := by
  have h12 := v12_1 m ρ c
  have h13 := v13_1 m ρ c
  have hc := cst2_1 m ρ c
  show after hostOps0_1 (W1 m ρ c) (Proc.devRef .tc main_v14) = _
  generalize W1 m ρ c = V1 at h12 h13 hc ⊢
  after_results_simp
  simp only [cast_cast, cast_eq]
  rw [h12, h13, hc]
  rfl

theorem v3_2 (c : Dev nD) : W2 m ρ c (Proc.devRef .tc main_v3) = Cert.ReferenceIdeal.ReadP.val_main_v3 (F := Ideal) (m ((c : Thread nD τ).loc main_arg1)) := by
  have h := v3_1 m ρ c
  show after hostOps0_1 (W1 m ρ c) (Proc.devRef .tc main_v3) = _
  generalize W1 m ρ c = V1 at h ⊢
  after_results_simp
  exact h

theorem v6_2 (c : Dev nD) : W2 m ρ c (Proc.devRef .tc main_v6) = Cert.ReferenceIdeal.ReadP.val_main_v6 (F := Ideal) (m ((c : Thread nD τ).loc main_arg1)) := by
  have h := v6_1 m ρ c
  show after hostOps0_1 (W1 m ρ c) (Proc.devRef .tc main_v6) = _
  generalize W1 m ρ c = V1 at h ⊢
  after_results_simp
  exact h

/-! ## At the first region's entry: the edge weights -/

theorem v29_3 (c : Dev nD) : W3 m ρ c (Proc.devRef .tc main_v29) = Cert.ReferenceIdeal.ReadP.val_main_v29 (F := Ideal) (m ((c : Thread nD τ).loc main_arg1)) := by
  have h3 := v3_2 m ρ c
  have h6 := v6_2 m ρ c
  have h14 := v14_2 m ρ c
  show after hostOps0_2 (W2 m ρ c) (Proc.devRef .tc main_v29) = _
  generalize W2 m ρ c = V2 at h3 h6 h14 ⊢
  after_results_simp
  rw [h3, h6, h14]
  rfl

theorem v3_3 (c : Dev nD) : W3 m ρ c (Proc.devRef .tc main_v3) = Cert.ReferenceIdeal.ReadP.val_main_v3 (F := Ideal) (m ((c : Thread nD τ).loc main_arg1)) := by
  have h := v3_2 m ρ c
  show after hostOps0_2 (W2 m ρ c) (Proc.devRef .tc main_v3) = _
  generalize W2 m ρ c = V2 at h ⊢
  after_results_simp
  exact h

theorem v6_3 (c : Dev nD) : W3 m ρ c (Proc.devRef .tc main_v6) = Cert.ReferenceIdeal.ReadP.val_main_v6 (F := Ideal) (m ((c : Thread nD τ).loc main_arg1)) := by
  have h := v6_2 m ρ c
  show after hostOps0_2 (W2 m ρ c) (Proc.devRef .tc main_v6) = _
  generalize W2 m ρ c = V2 at h ⊢
  after_results_simp
  exact h

end Cert.KernelIdeal.HostA

end
-- ==== Proof.GcnSpec.lean ====
/-
  What both programs compute, entry by entry, on the extended reals.

  The network is two graph-convolution layers and a linear classifier followed by a row-wise log-softmax. Its dense
  pieces are: the matrix product `A · W`; a layer's `relu (A + b) · W` with the bias `b` added to every row; the
  classifier's `relu (A + b) · W + c`; and the log-softmax of a matrix `L` in its shifted form,
  `(L − max) − log Σ exp (L − max)` along each row, the row maximum being the fold of `max` from `-∞`.
  Every function below is stated at an entry `(p, q)` as the textbook expression; no law of the extended reals is
  needed to relate the two programs, because they perform the same operations in the same order.
-/
import Idealize.ShloMosaic.PureOps.Ideal
import Idealize.ShloMosaic.Lib.ValueIdx

noncomputable section

namespace Gcn.Spec

open Idealize.ShloMosaic Idealize.ShloMosaic.ValueIdx

variable {M K N : ℕ}

/-- The extended real that the f32 word of `+0.0` denotes. Both programs carry this same word in their `relu`, so it
    is compared, never evaluated. -/
abbrev zeroW : EReal := Ideal.ofBits .f32 0x00000000#32

/-- The matrix product `A · W`: entry `(p, q)` is the sum over the contracted coordinate `k` of `A (p, k) · W (k, q)`. -/
def mm (A : (⟨2, ![M, K]⟩ : Shape).Idx → EReal) (W : (⟨2, ![K, N]⟩ : Shape).Idx → EReal) :
    (⟨2, ![M, N]⟩ : Shape).Idx → EReal :=
  fun i => ∑ k : Fin K, A (ix2 (i 0) k) * W (ix2 k (i 1))

theorem mm_apply (A : (⟨2, ![M, K]⟩ : Shape).Idx → EReal) (W : (⟨2, ![K, N]⟩ : Shape).Idx → EReal) (p : Fin M) (q : Fin N) :
    mm A W (ix2 p q) = ∑ k : Fin K, A (ix2 p k) * W (ix2 k q) := rfl

/-- A layer's dense part `relu (A + b) · W`: the bias `b` is added to every row of `A`, negative entries are
    clipped at zero, and the result is multiplied by `W`. -/
def layer (A : (⟨2, ![M, K]⟩ : Shape).Idx → EReal) (b : (⟨1, ![K]⟩ : Shape).Idx → EReal)
    (W : (⟨2, ![K, N]⟩ : Shape).Idx → EReal) : (⟨2, ![M, N]⟩ : Shape).Idx → EReal :=
  fun i => ∑ k : Fin K, max (A (ix2 (i 0) k) + b (ix1 k)) zeroW * W (ix2 k (i 1))

theorem layer_apply (A : (⟨2, ![M, K]⟩ : Shape).Idx → EReal) (b : (⟨1, ![K]⟩ : Shape).Idx → EReal)
    (W : (⟨2, ![K, N]⟩ : Shape).Idx → EReal) (p : Fin M) (q : Fin N) :
    layer A b W (ix2 p q) = ∑ k : Fin K, max (A (ix2 p k) + b (ix1 k)) zeroW * W (ix2 k q) := rfl

/-- The classifier's logits `relu (A + b) · W + c`, the bias `c` added to every row. -/
def logits (A : (⟨2, ![M, K]⟩ : Shape).Idx → EReal) (b : (⟨1, ![K]⟩ : Shape).Idx → EReal)
    (W : (⟨2, ![K, N]⟩ : Shape).Idx → EReal) (c : (⟨1, ![N]⟩ : Shape).Idx → EReal) : (⟨2, ![M, N]⟩ : Shape).Idx → EReal :=
  fun i => layer A b W i + c (ix1 (i 1))

theorem logits_apply (A : (⟨2, ![M, K]⟩ : Shape).Idx → EReal) (b : (⟨1, ![K]⟩ : Shape).Idx → EReal)
    (W : (⟨2, ![K, N]⟩ : Shape).Idx → EReal) (c : (⟨1, ![N]⟩ : Shape).Idx → EReal) (p : Fin M) (q : Fin N) :
    logits A b W c (ix2 p q) = (∑ k : Fin K, max (A (ix2 p k) + b (ix1 k)) zeroW * W (ix2 k q)) + c (ix1 q) := rfl

/-- The largest entry of row `r`: the fold of `max` over the row, from `-∞`. -/
def rowMax (L : (⟨2, ![M, N]⟩ : Shape).Idx → EReal) (r : Fin M) : EReal :=
  (Finset.univ : Finset (Fin N)).fold max ⊥ (fun q => L (ix2 r q))

/-- Row-wise log-softmax in its shifted form: from every entry its row's maximum is subtracted, and from that the
    logarithm of the row's sum of exponentials of the shifted entries. -/
def logSoftmax (L : (⟨2, ![M, N]⟩ : Shape).Idx → EReal) : (⟨2, ![M, N]⟩ : Shape).Idx → EReal :=
  fun i => (L i - rowMax L (i 0)) - Ideal.log (∑ q : Fin N, Ideal.exp (L (ix2 (i 0) q) - rowMax L (i 0)))

theorem logSoftmax_apply (L : (⟨2, ![M, N]⟩ : Shape).Idx → EReal) (p : Fin M) (q : Fin N) :
    logSoftmax L (ix2 p q)
      = (L (ix2 p q) - rowMax L p) - Ideal.log (∑ q' : Fin N, Ideal.exp (L (ix2 p q') - rowMax L p)) := rfl

end Gcn.Spec

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.Payloads.lean ====
/-
  What each kernel body stores, entry by entry.

  The three bodies store, into the output block of a grid point: the product of the point's block of rows with the
  whole weight matrix; `relu (rows + bias) · W`; and the row-wise log-softmax of `relu (rows + bias) · W + c`.
  Rounding an operand to bf16 on its way into the matrix unit is the identity on the extended reals, the matrix unit
  accumulating into the zero vector is the plain contraction, a row of biases broadcast over the block adds the same
  bias to every row, and the lane reductions of the log-softmax are the row's maximum and the row's sum.
-/
import proofs.«164419_j34832184770970_1_alg».proof.Proof.Gen.KernelIdeal.Skeleton
import proofs.«164419_j34832184770970_1_alg».proof.Proof.GcnSpec
import proofs.«164419_j34832184770970_1_alg».proof.Proof.LibPlainDot
import proofs.«164419_j34832184770970_1_alg».proof.Proof.LibRowOps
import Idealize.ShloMosaic.Lib.ValueLayout

noncomputable section

namespace Cert.KernelIdeal.Body

open Cert.KernelIdeal Cert.KernelIdeal.Gen Idealize.ShloMosaic Idealize.ShloMosaic.ValueIdx Gcn

/-- The three printed dimension records are the plain "rows by columns" contraction. -/
theorem dot0_plain : dot_S4000x512_S512x128_S4000x128_1_0_0_1_n_n = DotDims.plain 4000 512 128 := rfl
theorem dot1_plain : dot_S10000x128_S128x16_S10000x16_1_0_0_1_n_n = DotDims.plain 10000 128 16 := rfl
theorem dot2_plain : dot_S10000x16_S16x40_S10000x40_1_0_0_1_n_n = DotDims.plain 10000 16 40 := rfl

/-- The first body stores the product of its block of rows with the weight matrix. -/
theorem pay0_apply (x0 : FVec Ideal S4000x512 .f32) (x1 : FVec Ideal S512x128 .f32) (p : Fin 4000) (q : Fin 128) :
    k0_pay1 x0 x1 (ix2 p q) = ∑ k : Fin 512, x0 (ix2 p k) * x1 (ix2 k q) := by
  unfold k0_pay1
  rw [dot0_plain]
  exact Lib.plain_matmul_zero_apply (truncf .bf16 x0 bitsLt_bf16_f32) (truncf .bf16 x1 bitsLt_bf16_f32) none p q

/-- `relu (rows + bias)` of a block, at an entry: the bias row is the same for every row of the block. -/
theorem hidden_apply {a b : ℕ} (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (hlt : FTy.bf16.bits < FTy.f32.bits) (p : Fin a) (k : Fin b) :
    (truncf .bf16 (maximumf (addf (shapeCast ⟨2, ![a, b]⟩ x0 h0) (broadcastTo ⟨2, ![a, b]⟩ (shapeCast ⟨2, ![1, b]⟩ x1 h1) hb))
        (broadcast ⟨2, ![a, b]⟩ (Scalar.ofBits .f32 0x00000000#32))) hlt : FVec Ideal ⟨2, ![a, b]⟩ .bf16) (ix2 p k)
      = max (x0 (ix2 p k) + x1 (ix2 (0 : Fin 1) k)) Spec.zeroW := by
  rw [shapeCast_self, shapeCast_self]
  show max (x0 (ix2 p k) + broadcastTo ⟨2, ![a, b]⟩ x1 hb (ix2 p k)) (Scalar.ofBits .f32 0x00000000#32) = _
  rw [broadcastTo_1b_ab_apply]
  rfl

/-- The second body stores `relu (rows + bias) · W`. -/
theorem pay1_apply (x0 : FVec Ideal S10000x128 .f32) (x1 : FVec Ideal S1x128 .f32) (x2 : FVec Ideal S128x16 .f32)
    (p : Fin 10000) (q : Fin 16) :
    k1_pay1 x0 x1 x2 (ix2 p q)
      = ∑ k : Fin 128, max (x0 (ix2 p k) + x1 (ix2 (0 : Fin 1) k)) Spec.zeroW * x2 (ix2 k q) := by
  unfold k1_pay1
  rw [dot1_plain]
  refine (Lib.plain_matmul_zero_apply _ _ none p q).trans (Finset.sum_congr rfl fun k _ => ?_)
  exact congrArg (· * x2 (ix2 k q)) (hidden_apply x0 x1 _ _ _ _ p k)

/-- The body's shifted log-softmax of a block `L`, at an entry: the lane maximum recast as a column and broadcast back
    is the row's maximum at every entry of the row, and likewise the logarithm of the lane sum of the exponentials. -/
theorem shifted_logSoftmax_apply {a b : ℕ} (L : FVec Ideal ⟨2, ![a, b]⟩ .f32)
    (hr : Shape.Reduces ⟨2, ![a, b]⟩ [1] ⟨1, ![a]⟩) (hφ : FKind.Formats .f32)
    (hM : (0xFF800000#32 : BitVec 32) = FKind.maximumf.neutral .f32 hφ)
    (hS : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    subf (subf L (broadcastTo ⟨2, ![a, b]⟩ (shapeCast ⟨2, ![a, 1]⟩ (multiReduction .maximumf [1] ⟨1, ![a]⟩ L 0xFF800000#32 hr hφ hM) hc) hb))
      (broadcastTo ⟨2, ![a, b]⟩ (log (shapeCast ⟨2, ![a, 1]⟩
        (multiReduction .add [1] ⟨1, ![a]⟩
          (exp (subf L (broadcastTo ⟨2, ![a, b]⟩ (shapeCast ⟨2, ![a, 1]⟩ (multiReduction .maximumf [1] ⟨1, ![a]⟩ L 0xFF800000#32 hr hφ hM) hc) hb)))
          0x00000000#32 hr hφ hS) hc)) hb) (ix2 p q)
      = Spec.logSoftmax L (ix2 p q) := by
  have hmax : ∀ (p' : Fin a) (q' : Fin b),
      broadcastTo ⟨2, ![a, b]⟩ (shapeCast ⟨2, ![a, 1]⟩ (multiReduction .maximumf [1] ⟨1, ![a]⟩ L 0xFF800000#32 hr hφ hM) hc) hb (ix2 p' q')
        = Spec.rowMax L p' := fun p' q' => by
    rw [Lib.broadcastTo_a1_ab_apply, Lib.shapeCast_a_a1_apply, Lib.rowMax_apply]; rfl
  rw [Spec.logSoftmax_apply, subf_apply, subf_apply, hmax, Lib.broadcastTo_a1_ab_apply]
  show _ - Ideal.log (shapeCast ⟨2, ![a, 1]⟩ _ hc (ix2 p (0 : Fin 1))) = _
  rw [Lib.shapeCast_a_a1_apply, Lib.rowSum_apply]
  refine congrArg (fun s => L (ix2 p q) - Spec.rowMax L p - Ideal.log s) (Finset.sum_congr rfl fun q' _ => ?_)
  show Ideal.exp (subf L _ (ix2 p q')) = _
  rw [subf_apply, hmax]

/-- The third body stores the row-wise log-softmax of `relu (rows + bias) · W + c`. -/
theorem pay2_apply (x0 : FVec Ideal S10000x16 .f32) (x1 : FVec Ideal S1x16 .f32) (x2 : FVec Ideal S16x40 .f32)
    (x3 : FVec Ideal S1x40 .f32) (p : Fin 10000) (q : Fin 40) :
    k2_pay1 (F := Ideal) x0 x1 x2 x3 (ix2 p q)
      = Spec.logSoftmax (Spec.logits x0 (fun j => x1 (ix2 (0 : Fin 1) (j 0))) x2 (fun j => x3 (ix2 (0 : Fin 1) (j 0)))) (ix2 p q) := by
  unfold k2_pay1
  rw [dot2_plain]
  refine (shifted_logSoftmax_apply _ _ _ _ _ _ _ p q).trans ?_
  refine congrArg (fun L => Spec.logSoftmax L (ix2 p q)) (funext fun j => ?_)
  obtain ⟨p', q', rfl⟩ : ∃ (p' : Fin 10000) (q' : Fin 40), j = ix2 p' q' := ⟨j 0, j 1, eq_ix2 j⟩
  rw [Spec.logits_apply, addf_apply, broadcastTo_1b_ab_apply, shapeCast_self x3]
  show _ + x3 (ix2 (0 : Fin 1) q') = _ + x3 (ix2 (0 : Fin 1) q')
  refine congrArg (· + x3 (ix2 (0 : Fin 1) q')) ?_
  refine (Lib.plain_matmul_zero_apply _ _ none p' q').trans (Finset.sum_congr rfl fun k _ => ?_)
  exact congrArg (· * x2 (ix2 k q')) (hidden_apply x0 x1 _ _ _ _ p' k)

end Cert.KernelIdeal.Body

end
-- ==== Proof.Region0.lean ====
/-
  The first kernel region: the feature transform `x · W₁`, block of rows by block of rows.

  Its grid has 25 points; point `t` reads rows `4000 t … 4000 t + 3999` of the left matrix and the whole right
  matrix, and writes back rows `4000 t … 4000 t + 3999` of the product. The row blocks tile the 100000 rows, so
  after the region the output array is the whole product of the two arrays as the region found them.
  Everything here is stated at the contents `V` the region is entered with, whatever they are.
-/
import proofs.«164419_j34832184770970_1_alg».proof.Proof.Gen.KernelIdeal.Frame
import proofs.«164419_j34832184770970_1_alg».proof.Proof.Payloads
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-block index of the left operand and of the output is the point,
    every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the left operand's block at point `t` is row `4000 t + p` of the array. -/
theorem lhs_block (c : Dev nD) (t : Fin cfg0.N) (p : Fin 4000) (k : Fin 512) (r : Fin 100000)
    (hr : r.val = 4000 * t.val + p.val) :
    (iblk0 V c 0 t : FVec Ideal S4000x512 .f32) (ix2 p k) = (V c main_arg0 : S100000x512.Idx → EReal) (ix2 r k) := by
  obtain ⟨e0, e1, -⟩ := idx_facts t
  unfold iblk0
  rw [View.read_apply]
  show (V c main_arg0 : S100000x512.Idx → EReal) _ = V c main_arg0 _
  refine congrArg _ (funext fun a => Fin.ext ?_)
  match a with
  | ⟨0, _⟩ => show win0_0.index t (0 : Fin 2) * 4000 + 1 * p.val = r.val; rw [e0, hr]; omega
  | ⟨1, _⟩ => show win0_0.index t (1 : Fin 2) * 512 + 1 * k.val = k.val; rw [e1]; omega

/-- The right operand's block at every point is the whole array. -/
theorem rhs_block (c : Dev nD) (t : Fin cfg0.N) (k : Fin 512) (q : Fin 128) :
    (iblk0 V c 1 t : FVec Ideal S512x128 .f32) (ix2 k q) = (V c main_arg2 : S512x128.Idx → EReal) (ix2 k q) := by
  obtain ⟨-, -, e2, e3, -⟩ := idx_facts t
  unfold iblk0
  rw [View.read_apply]
  show (V c main_arg2 : S512x128.Idx → EReal) _ = V c main_arg2 _
  refine congrArg _ (funext fun a => Fin.ext ?_)
  match a with
  | ⟨0, _⟩ => show win0_1.index t (0 : Fin 2) * 512 + 1 * k.val = k.val; rw [e2]; omega
  | ⟨1, _⟩ => show win0_1.index t (1 : Fin 2) * 128 + 1 * q.val = q.val; rw [e3]; omega

/-- What the body stores at entry `(p, q)` of its output block is entry `(r, q)` of the whole product, when row
    `p` of its left block is row `r` of the left array and its right block is the right array. -/
theorem stored_eq (A : S100000x512.Idx → EReal) (W : S512x128.Idx → EReal) (x0 : FVec Ideal S4000x512 .f32)
    (x1 : FVec Ideal S512x128 .f32) (p : Fin 4000) (q : Fin 128) (r : Fin 100000)
    (h0 : ∀ k : Fin 512, x0 (ix2 p k) = A (ix2 r k)) (h1 : ∀ k : Fin 512, x1 (ix2 k q) = W (ix2 k q)) :
    k0_pay1 (F := Ideal) x0 x1 (ix2 p q) = Spec.mm (M := 100000) (K := 512) (N := 128) A W (ix2 r q) := by
  rw [Body.pay0_apply, Spec.mm_apply]
  exact Finset.sum_congr rfl fun k _ => by rw [h0 k, h1 k]

/-- What point `t` writes back is block `t` of the whole product. -/
theorem flushed_eq (c : Dev nD) (t : Fin cfg0.N) :
    (dat0 V c).flushed 2 t
      = ((cfg0.win 2).blk t).view.read (Elt Ideal)
          (Spec.mm (M := 100000) (K := 512) (N := 128) (V c main_arg0) (V c main_arg2)) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x128) hz]
  obtain ⟨-, -, -, -, e4, e5⟩ := idx_facts t
  have hN : cfg0.N = 25 := N_0
  have ht : t.val < 25 := hN ▸ t.isLt
  funext j
  have hj0 : (j 0).val < 4000 := (j 0).isLt
  have hj1 : (j 1).val < 128 := (j 1).isLt
  have hemb : ((cfg0.win 2).blk t).view.emb j
      = (ix2 (⟨4000 * t.val + (j 0).val, by omega⟩ : Fin 100000) (⟨(j 1).val, hj1⟩ : Fin 128) : S100000x128.Idx) := by
    funext a
    apply Fin.ext
    match a with
    | ⟨0, _⟩ => show win0_2.index t (0 : Fin 2) * 4000 + 1 * (j 0).val = 4000 * t.val + (j 0).val; rw [e4]; omega
    | ⟨1, _⟩ => show win0_2.index t (1 : Fin 2) * 128 + 1 * (j 1).val = (j 1).val; rw [e5]; omega
  show k0_pay1 (iblk0 V c 0 t) (iblk0 V c 1 t) j
      = Spec.mm (M := 100000) (K := 512) (N := 128) (V c main_arg0) (V c main_arg2) (((cfg0.win 2).blk t).view.emb j)
  rw [hemb]
  refine (congrArg (k0_pay1 (iblk0 V c 0 t) (iblk0 V c 1 t)) (eq_ix2 (n0 := 4000) (n1 := 128) j)).trans ?_
  exact stored_eq (V c main_arg0) (V c main_arg2) (iblk0 V c 0 t) (iblk0 V c 1 t) ⟨(j 0).val, hj0⟩ ⟨(j 1).val, hj1⟩ _
    (fun k => lhs_block V c t ⟨(j 0).val, hj0⟩ k _ rfl) (fun k => rhs_block V c t k ⟨(j 1).val, hj1⟩)

/-- Every entry of the output array is in the block of the point its row falls in. -/
theorem cover (c : Dev nD) (i : S100000x128.Idx) :
    ∃ t : Fin cfg0.N, (cfg0.win 2).flush t = true ∧ i ∈ ((cfg0.win 2).blk t).view.set := by
  have hN : cfg0.N = 25 := N_0
  have hi0 : (i 0).val < 100000 := (i 0).isLt
  have hi1 : (i 1).val < 128 := (i 1).isLt
  have hlt : (i 0).val / 4000 < cfg0.N := by rw [hN]; omega
  obtain ⟨-, -, -, -, e4, e5⟩ := idx_facts ⟨(i 0).val / 4000, hlt⟩
  have e4' : win0_2.index ⟨(i 0).val / 4000, hlt⟩ (0 : Fin 2) = (i 0).val / 4000 := e4
  refine ⟨⟨(i 0).val / 4000, hlt⟩, flush0_2 _, ?_⟩
  show i ∈ ((View.whole main_v30).slice (win0_2.rect ⟨(i 0).val / 4000, hlt⟩)).set
  rw [View.set_slice_whole, Rect.mem_set_unit]
  intro a
  match a with
  | ⟨0, _⟩ =>
    show win0_2.index ⟨(i 0).val / 4000, hlt⟩ (0 : Fin 2) * 4000 ≤ (i 0).val
      ∧ (i 0).val < win0_2.index ⟨(i 0).val / 4000, hlt⟩ (0 : Fin 2) * 4000 + 4000
    rw [e4']; omega
  | ⟨1, _⟩ =>
    show win0_2.index ⟨(i 0).val / 4000, hlt⟩ (1 : Fin 2) * 128 ≤ (i 1).val
      ∧ (i 1).val < win0_2.index ⟨(i 0).val / 4000, hlt⟩ (1 : Fin 2) * 128 + 128
    rw [e5]; omega

/-- After the region the output array is the product of the two arrays as the region found them. -/
theorem final (c : Dev nD) :
    (dat0 V c).arrAt 2 cfg0.N = Spec.mm (M := 100000) (K := 512) (N := 128) (V c main_arg0) (V c main_arg2) :=
  (dat0 V c).arrAt_eq_of_cover 2 _ (fun t _ => flushed_eq V c t) (cover c)

end Cert.KernelIdeal.Region0

end
-- ==== Proof.Region1.lean ====
/-
  The second kernel region: `relu (agg + b₁) · W₂`, block of rows by block of rows.

  Its grid has 10 points; point `t` reads rows `10000 t … 10000 t + 9999` of the aggregated features and the whole
  bias row and weight matrix, and writes back rows `10000 t … 10000 t + 9999` of the result. An entry of the result depends on one row of the aggregated features only.
  The row blocks tile the 100000 rows, so after the region the output array is the whole function of the arrays as the
  region found them. Everything here is stated at the contents `V` the region is entered with, whatever they are.
-/
import proofs.«164419_j34832184770970_1_alg».proof.Proof.Gen.KernelIdeal.Frame
import proofs.«164419_j34832184770970_1_alg».proof.Proof.Payloads
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-block index of the first operand and of the output is the point,
    every other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the first operand's block at point `t` is row `10000 t + p` of the array. -/
theorem rows_block (c : Dev nD) (t : Fin cfg1.N) (p : Fin 10000) (k : Fin 128) (r : Fin 100000)
    (hr : r.val = 10000 * t.val + p.val) :
    (iblk1 V c 0 t : FVec Ideal S10000x128 .f32) (ix2 p k) = (V c main_v43 : S100000x128.Idx → EReal) (ix2 r k) := by
  obtain ⟨e0, e1, -⟩ := idx_facts t
  unfold iblk1
  rw [View.read_apply]
  show (V c main_v43 : S100000x128.Idx → EReal) _ = V c main_v43 _
  refine congrArg _ (funext fun a => Fin.ext ?_)
  match a with
  | ⟨0, _⟩ => show win1_0.index t (0 : Fin 2) * 10000 + 1 * p.val = r.val; rw [e0, hr]; omega
  | ⟨1, _⟩ => show win1_0.index t (1 : Fin 2) * 128 + 1 * k.val = k.val; rw [e1]; omega

/-- The block of operand 1 at every point is the whole array. -/
theorem whole1_block (c : Dev nD) (t : Fin cfg1.N) (a' : Fin 1) (b' : Fin 128) :
    (iblk1 V c 1 t : FVec Ideal S1x128 .f32) (ix2 a' b') = (V c main_v44 : S1x128.Idx → EReal) (ix2 a' b') := by
  obtain ⟨-, -, e2, e3, -, -, -⟩ := idx_facts t
  unfold iblk1
  rw [View.read_apply]
  show (V c main_v44 : S1x128.Idx → EReal) _ = V c main_v44 _
  refine congrArg _ (funext fun a => Fin.ext ?_)
  match a with
  | ⟨0, _⟩ => show win1_1.index t (0 : Fin 2) * 1 + 1 * a'.val = a'.val; rw [e2]; omega
  | ⟨1, _⟩ => show win1_1.index t (1 : Fin 2) * 128 + 1 * b'.val = b'.val; rw [e3]; omega

/-- The block of operand 2 at every point is the whole array. -/
theorem whole2_block (c : Dev nD) (t : Fin cfg1.N) (a' : Fin 128) (b' : Fin 16) :
    (iblk1 V c 2 t : FVec Ideal S128x16 .f32) (ix2 a' b') = (V c main_arg4 : S128x16.Idx → EReal) (ix2 a' b') := by
  obtain ⟨-, -, -, -, e2, e3, -⟩ := idx_facts t
  unfold iblk1
  rw [View.read_apply]
  show (V c main_arg4 : S128x16.Idx → EReal) _ = V c main_arg4 _
  refine congrArg _ (funext fun a => Fin.ext ?_)
  match a with
  | ⟨0, _⟩ => show win1_2.index t (0 : Fin 2) * 128 + 1 * a'.val = a'.val; rw [e2]; omega
  | ⟨1, _⟩ => show win1_2.index t (1 : Fin 2) * 16 + 1 * b'.val = b'.val; rw [e3]; omega

/-- What the body stores at entry `(p, q)` of its output block is entry `(r, q)` of the whole result, when row `p` of
    its first block is row `r` of the first array and its other blocks are the other arrays. -/
theorem stored_eq (A : S100000x128.Idx → EReal) (b : S1x128.Idx → EReal) (W : S128x16.Idx → EReal)
    (x0 : FVec Ideal S10000x128 .f32) (x1 : FVec Ideal S1x128 .f32) (x2 : FVec Ideal S128x16 .f32)
    (p : Fin 10000) (q : Fin 16) (r : Fin 100000)
    (h0 : ∀ k : Fin 128, x0 (ix2 p k) = A (ix2 r k)) (h1 : ∀ (u : Fin 1) (k : Fin 128), x1 (ix2 u k) = b (ix2 u k))
    (h2 : ∀ (k : Fin 128) (q' : Fin 16), x2 (ix2 k q') = W (ix2 k q')) :
    k1_pay1 (F := Ideal) x0 x1 x2 (ix2 p q)
      = Spec.layer (M := 100000) (K := 128) (N := 16) A (fun j => b (ix2 (0 : Fin 1) (j 0))) W (ix2 r q) := by
  rw [Body.pay1_apply, Spec.layer_apply]
  refine Finset.sum_congr rfl fun k _ => ?_
  rw [h0 k, h1 0 k, h2 k q]

/-- What point `t` writes back is block `t` of the whole result. -/
theorem flushed_eq (c : Dev nD) (t : Fin cfg1.N) :
    (dat1 V c).flushed 3 t
      = ((cfg1.win 3).blk t).view.read (Elt Ideal) (Spec.layer (M := 100000) (K := 128) (N := 16) (V c main_v43) (fun j => (V c main_v44 : S1x128.Idx → EReal) (ix2 (0 : Fin 1) (j 0))) (V c main_arg4)) := by
  show (cfg1.win 3).cut (grid1.coords t) ((dat1 V c).after 3 t) = _
  rw [after1_3]
  unfold out1_3
  rw [View.canon_unit_zero hz]
  simp only [View.ld_unit_zero (S := S10000x128) hz, View.ld_unit_zero (S := S1x128) hz, View.ld_unit_zero (S := S128x16) hz]
  obtain ⟨-, -, -, -, -, -, e4, e5⟩ := idx_facts t
  have hN : cfg1.N = 10 := N_1
  have ht : t.val < 10 := hN ▸ t.isLt
  funext j
  have hj0 : (j 0).val < 10000 := (j 0).isLt
  have hj1 : (j 1).val < 16 := (j 1).isLt
  have hemb : ((cfg1.win 3).blk t).view.emb j
      = (ix2 (⟨10000 * t.val + (j 0).val, by omega⟩ : Fin 100000) (⟨(j 1).val, hj1⟩ : Fin 16) : S100000x16.Idx) := by
    funext a
    apply Fin.ext
    match a with
    | ⟨0, _⟩ => show win1_3.index t (0 : Fin 2) * 10000 + 1 * (j 0).val = 10000 * t.val + (j 0).val; rw [e4]; omega
    | ⟨1, _⟩ => show win1_3.index t (1 : Fin 2) * 16 + 1 * (j 1).val = (j 1).val; rw [e5]; omega
  show k1_pay1 (F := Ideal) (iblk1 V c 0 t) (iblk1 V c 1 t) (iblk1 V c 2 t) j
      = (Spec.layer (M := 100000) (K := 128) (N := 16) (V c main_v43) (fun j => (V c main_v44 : S1x128.Idx → EReal) (ix2 (0 : Fin 1) (j 0))) (V c main_arg4)) (((cfg1.win 3).blk t).view.emb j)
  rw [hemb]
  refine (congrArg (k1_pay1 (F := Ideal) (iblk1 V c 0 t) (iblk1 V c 1 t) (iblk1 V c 2 t)) (eq_ix2 (n0 := 10000) (n1 := 16) j)).trans ?_
  exact stored_eq (V c main_v43) (V c main_v44) (V c main_arg4) (iblk1 V c 0 t) (iblk1 V c 1 t) (iblk1 V c 2 t) ⟨(j 0).val, hj0⟩ ⟨(j 1).val, hj1⟩ _
    (fun k => rows_block V c t ⟨(j 0).val, hj0⟩ k _ rfl) (fun a' b' => whole1_block V c t a' b') (fun a' b' => whole2_block V c t a' b')

/-- Every entry of the output array is in the block of the point its row falls in. -/
theorem cover (c : Dev nD) (i : S100000x16.Idx) :
    ∃ t : Fin cfg1.N, (cfg1.win 3).flush t = true ∧ i ∈ ((cfg1.win 3).blk t).view.set := by
  have hN : cfg1.N = 10 := N_1
  have hi0 : (i 0).val < 100000 := (i 0).isLt
  have hi1 : (i 1).val < 16 := (i 1).isLt
  have hlt : (i 0).val / 10000 < cfg1.N := by rw [hN]; omega
  obtain ⟨-, -, -, -, -, -, e4, e5⟩ := idx_facts ⟨(i 0).val / 10000, hlt⟩
  have e4' : win1_3.index ⟨(i 0).val / 10000, hlt⟩ (0 : Fin 2) = (i 0).val / 10000 := e4
  refine ⟨⟨(i 0).val / 10000, hlt⟩, flush1_3 _, ?_⟩
  show i ∈ ((View.whole main_v45).slice (win1_3.rect ⟨(i 0).val / 10000, hlt⟩)).set
  rw [View.set_slice_whole, Rect.mem_set_unit]
  intro a
  match a with
  | ⟨0, _⟩ =>
    show win1_3.index ⟨(i 0).val / 10000, hlt⟩ (0 : Fin 2) * 10000 ≤ (i 0).val
      ∧ (i 0).val < win1_3.index ⟨(i 0).val / 10000, hlt⟩ (0 : Fin 2) * 10000 + 10000
    rw [e4']; omega
  | ⟨1, _⟩ =>
    show win1_3.index ⟨(i 0).val / 10000, hlt⟩ (1 : Fin 2) * 16 ≤ (i 1).val
      ∧ (i 1).val < win1_3.index ⟨(i 0).val / 10000, hlt⟩ (1 : Fin 2) * 16 + 16
    rw [e5]; omega

/-- After the region the output array is the whole result of the arrays as the region found them. -/
theorem final (c : Dev nD) :
    (dat1 V c).arrAt 3 cfg1.N = Spec.layer (M := 100000) (K := 128) (N := 16) (V c main_v43) (fun j => (V c main_v44 : S1x128.Idx → EReal) (ix2 (0 : Fin 1) (j 0))) (V c main_arg4) :=
  (dat1 V c).arrAt_eq_of_cover 3 _ (fun t _ => flushed_eq V c t) (cover c)

end Cert.KernelIdeal.Region1

end
-- ==== Proof.Region2.lean ====
/-
  The third kernel region: the classifier and its row-wise log-softmax, block of rows by block of rows.

  Its grid has 10 points; point `t` reads rows `10000 t … 10000 t + 9999` of the aggregated features and the whole
  bias rows and weight matrix, and writes back rows `10000 t … 10000 t + 9999` of the result. An entry of the result depends on one row of the aggregated features only: the log-softmax normalises along a row.
  The row blocks tile the 100000 rows, so after the region the output array is the whole function of the arrays as the
  region found them. Everything here is stated at the contents `V` the region is entered with, whatever they are.
-/
import proofs.«164419_j34832184770970_1_alg».proof.Proof.Gen.KernelIdeal.Frame
import proofs.«164419_j34832184770970_1_alg».proof.Proof.Payloads
import Idealize.ShloMosaic.Lib.Pipeline.Value

noncomputable section

namespace Cert.KernelIdeal.Region2

open Cert.KernelIdeal Cert.KernelIdeal.Gen Idealize.ShloMosaic Idealize.ShloMosaic.TcCoe Idealize.SL.Sem
open Idealize.ShloMosaic.ValueIdx Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-block index of the first operand and of the output is the point,
    every other block index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of the first operand's block at point `t` is row `10000 t + p` of the array. -/
theorem rows_block (c : Dev nD) (t : Fin cfg2.N) (p : Fin 10000) (k : Fin 16) (r : Fin 100000)
    (hr : r.val = 10000 * t.val + p.val) :
    (iblk2 V c 0 t : FVec Ideal S10000x16 .f32) (ix2 p k) = (V c main_v58 : S100000x16.Idx → EReal) (ix2 r k) := by
  obtain ⟨e0, e1, -⟩ := idx_facts t
  unfold iblk2
  rw [View.read_apply]
  show (V c main_v58 : S100000x16.Idx → EReal) _ = V c main_v58 _
  refine congrArg _ (funext fun a => Fin.ext ?_)
  match a with
  | ⟨0, _⟩ => show win2_0.index t (0 : Fin 2) * 10000 + 1 * p.val = r.val; rw [e0, hr]; omega
  | ⟨1, _⟩ => show win2_0.index t (1 : Fin 2) * 16 + 1 * k.val = k.val; rw [e1]; omega

/-- The block of operand 1 at every point is the whole array. -/
theorem whole1_block (c : Dev nD) (t : Fin cfg2.N) (a' : Fin 1) (b' : Fin 16) :
    (iblk2 V c 1 t : FVec Ideal S1x16 .f32) (ix2 a' b') = (V c main_v59 : S1x16.Idx → EReal) (ix2 a' b') := by
  obtain ⟨-, -, e2, e3, -, -, -, -, -⟩ := idx_facts t
  unfold iblk2
  rw [View.read_apply]
  show (V c main_v59 : S1x16.Idx → EReal) _ = V c main_v59 _
  refine congrArg _ (funext fun a => Fin.ext ?_)
  match a with
  | ⟨0, _⟩ => show win2_1.index t (0 : Fin 2) * 1 + 1 * a'.val = a'.val; rw [e2]; omega
  | ⟨1, _⟩ => show win2_1.index t (1 : Fin 2) * 16 + 1 * b'.val = b'.val; rw [e3]; omega

/-- The block of operand 2 at every point is the whole array. -/
theorem whole2_block (c : Dev nD) (t : Fin cfg2.N) (a' : Fin 16) (b' : Fin 40) :
    (iblk2 V c 2 t : FVec Ideal S16x40 .f32) (ix2 a' b') = (V c main_arg6 : S16x40.Idx → EReal) (ix2 a' b') := by
  obtain ⟨-, -, -, -, e2, e3, -, -, -⟩ := idx_facts t
  unfold iblk2
  rw [View.read_apply]
  show (V c main_arg6 : S16x40.Idx → EReal) _ = V c main_arg6 _
  refine congrArg _ (funext fun a => Fin.ext ?_)
  match a with
  | ⟨0, _⟩ => show win2_2.index t (0 : Fin 2) * 16 + 1 * a'.val = a'.val; rw [e2]; omega
  | ⟨1, _⟩ => show win2_2.index t (1 : Fin 2) * 40 + 1 * b'.val = b'.val; rw [e3]; omega

/-- The block of operand 3 at every point is the whole array. -/
theorem whole3_block (c : Dev nD) (t : Fin cfg2.N) (a' : Fin 1) (b' : Fin 40) :
    (iblk2 V c 3 t : FVec Ideal S1x40 .f32) (ix2 a' b') = (V c main_v60 : S1x40.Idx → EReal) (ix2 a' b') := by
  obtain ⟨-, -, -, -, -, -, e2, e3, -⟩ := idx_facts t
  unfold iblk2
  rw [View.read_apply]
  show (V c main_v60 : S1x40.Idx → EReal) _ = V c main_v60 _
  refine congrArg _ (funext fun a => Fin.ext ?_)
  match a with
  | ⟨0, _⟩ => show win2_3.index t (0 : Fin 2) * 1 + 1 * a'.val = a'.val; rw [e2]; omega
  | ⟨1, _⟩ => show win2_3.index t (1 : Fin 2) * 40 + 1 * b'.val = b'.val; rw [e3]; omega

/-- The log-softmax at an entry depends on its matrix through that entry's row only. -/
theorem logSoftmax_row_congr {M M' N : ℕ} (L : (⟨2, ![M, N]⟩ : Shape).Idx → EReal) (L' : (⟨2, ![M', N]⟩ : Shape).Idx → EReal)
    (p : Fin M) (r : Fin M') (h : ∀ q' : Fin N, L (ix2 p q') = L' (ix2 r q')) (q : Fin N) :
    Spec.logSoftmax L (ix2 p q) = Spec.logSoftmax L' (ix2 r q) := by
  have hmax : Spec.rowMax L p = Spec.rowMax L' r := by
    unfold Spec.rowMax
    exact congrArg (fun f => (Finset.univ : Finset (Fin N)).fold max ⊥ f) (funext h)
  rw [Spec.logSoftmax_apply, Spec.logSoftmax_apply, hmax, h q]
  exact congrArg (fun s => L' (ix2 r q) - Spec.rowMax L' r - Ideal.log s) (Finset.sum_congr rfl fun q' _ => by rw [h q'])

/-- What the body stores at entry `(p, q)` of its output block is entry `(r, q)` of the whole result, when row `p` of
    its first block is row `r` of the first array and its other blocks are the other arrays. -/
theorem stored_eq (A : S100000x16.Idx → EReal) (b : S1x16.Idx → EReal) (W : S16x40.Idx → EReal) (cb : S1x40.Idx → EReal)
    (x0 : FVec Ideal S10000x16 .f32) (x1 : FVec Ideal S1x16 .f32) (x2 : FVec Ideal S16x40 .f32) (x3 : FVec Ideal S1x40 .f32)
    (p : Fin 10000) (q : Fin 40) (r : Fin 100000)
    (h0 : ∀ k : Fin 16, x0 (ix2 p k) = A (ix2 r k)) (h1 : ∀ (u : Fin 1) (k : Fin 16), x1 (ix2 u k) = b (ix2 u k))
    (h2 : ∀ (k : Fin 16) (q' : Fin 40), x2 (ix2 k q') = W (ix2 k q'))
    (h3 : ∀ (u : Fin 1) (q' : Fin 40), x3 (ix2 u q') = cb (ix2 u q')) :
    k2_pay1 (F := Ideal) x0 x1 x2 x3 (ix2 p q)
      = Spec.logSoftmax (Spec.logits (M := 100000) (K := 16) (N := 40) A (fun j => b (ix2 (0 : Fin 1) (j 0))) W
          (fun j => cb (ix2 (0 : Fin 1) (j 0)))) (ix2 r q) := by
  rw [Body.pay2_apply]
  refine logSoftmax_row_congr _ _ p r (fun q' => ?_) q
  rw [Spec.logits_apply, Spec.logits_apply]
  show _ + x3 (ix2 (0 : Fin 1) q') = _ + cb (ix2 (0 : Fin 1) q')
  rw [h3 0 q']
  refine congrArg (· + cb (ix2 (0 : Fin 1) q')) (Finset.sum_congr rfl fun k _ => ?_)
  show max (x0 (ix2 p k) + x1 (ix2 (0 : Fin 1) k)) Spec.zeroW * x2 (ix2 k q') = max (A (ix2 r k) + b (ix2 (0 : Fin 1) k)) Spec.zeroW * W (ix2 k q')
  rw [h0 k, h1 0 k, h2 k q']

/-- What point `t` writes back is block `t` of the whole result. -/
theorem flushed_eq (c : Dev nD) (t : Fin cfg2.N) :
    (dat2 V c).flushed 4 t
      = ((cfg2.win 4).blk t).view.read (Elt Ideal) (Spec.logSoftmax (Spec.logits (M := 100000) (K := 16) (N := 40) (V c main_v58) (fun j => (V c main_v59 : S1x16.Idx → EReal) (ix2 (0 : Fin 1) (j 0))) (V c main_arg6) (fun j => (V c main_v60 : S1x40.Idx → EReal) (ix2 (0 : Fin 1) (j 0))))) := by
  show (cfg2.win 4).cut (grid2.coords t) ((dat2 V c).after 4 t) = _
  rw [after2_4]
  unfold out2_4
  rw [View.canon_unit_zero hz]
  simp only [View.ld_unit_zero (S := S10000x16) hz, View.ld_unit_zero (S := S1x16) hz, View.ld_unit_zero (S := S16x40) hz, View.ld_unit_zero (S := S1x40) hz]
  obtain ⟨-, -, -, -, -, -, -, -, e4, e5⟩ := idx_facts t
  have hN : cfg2.N = 10 := N_2
  have ht : t.val < 10 := hN ▸ t.isLt
  funext j
  have hj0 : (j 0).val < 10000 := (j 0).isLt
  have hj1 : (j 1).val < 40 := (j 1).isLt
  have hemb : ((cfg2.win 4).blk t).view.emb j
      = (ix2 (⟨10000 * t.val + (j 0).val, by omega⟩ : Fin 100000) (⟨(j 1).val, hj1⟩ : Fin 40) : S100000x40.Idx) := by
    funext a
    apply Fin.ext
    match a with
    | ⟨0, _⟩ => show win2_4.index t (0 : Fin 2) * 10000 + 1 * (j 0).val = 10000 * t.val + (j 0).val; rw [e4]; omega
    | ⟨1, _⟩ => show win2_4.index t (1 : Fin 2) * 40 + 1 * (j 1).val = (j 1).val; rw [e5]; omega
  show k2_pay1 (F := Ideal) (iblk2 V c 0 t) (iblk2 V c 1 t) (iblk2 V c 2 t) (iblk2 V c 3 t) j
      = (Spec.logSoftmax (Spec.logits (M := 100000) (K := 16) (N := 40) (V c main_v58) (fun j => (V c main_v59 : S1x16.Idx → EReal) (ix2 (0 : Fin 1) (j 0))) (V c main_arg6) (fun j => (V c main_v60 : S1x40.Idx → EReal) (ix2 (0 : Fin 1) (j 0))))) (((cfg2.win 4).blk t).view.emb j)
  rw [hemb]
  refine (congrArg (k2_pay1 (F := Ideal) (iblk2 V c 0 t) (iblk2 V c 1 t) (iblk2 V c 2 t) (iblk2 V c 3 t)) (eq_ix2 (n0 := 10000) (n1 := 40) j)).trans ?_
  exact stored_eq (V c main_v58) (V c main_v59) (V c main_arg6) (V c main_v60) (iblk2 V c 0 t) (iblk2 V c 1 t) (iblk2 V c 2 t) (iblk2 V c 3 t) ⟨(j 0).val, hj0⟩ ⟨(j 1).val, hj1⟩ _
    (fun k => rows_block V c t ⟨(j 0).val, hj0⟩ k _ rfl) (fun a' b' => whole1_block V c t a' b') (fun a' b' => whole2_block V c t a' b') (fun a' b' => whole3_block V c t a' b')

/-- Every entry of the output array is in the block of the point its row falls in. -/
theorem cover (c : Dev nD) (i : S100000x40.Idx) :
    ∃ t : Fin cfg2.N, (cfg2.win 4).flush t = true ∧ i ∈ ((cfg2.win 4).blk t).view.set := by
  have hN : cfg2.N = 10 := N_2
  have hi0 : (i 0).val < 100000 := (i 0).isLt
  have hi1 : (i 1).val < 40 := (i 1).isLt
  have hlt : (i 0).val / 10000 < cfg2.N := by rw [hN]; omega
  obtain ⟨-, -, -, -, -, -, -, -, e4, e5⟩ := idx_facts ⟨(i 0).val / 10000, hlt⟩
  have e4' : win2_4.index ⟨(i 0).val / 10000, hlt⟩ (0 : Fin 2) = (i 0).val / 10000 := e4
  refine ⟨⟨(i 0).val / 10000, hlt⟩, flush2_4 _, ?_⟩
  show i ∈ ((View.whole main_v61).slice (win2_4.rect ⟨(i 0).val / 10000, hlt⟩)).set
  rw [View.set_slice_whole, Rect.mem_set_unit]
  intro a
  match a with
  | ⟨0, _⟩ =>
    show win2_4.index ⟨(i 0).val / 10000, hlt⟩ (0 : Fin 2) * 10000 ≤ (i 0).val
      ∧ (i 0).val < win2_4.index ⟨(i 0).val / 10000, hlt⟩ (0 : Fin 2) * 10000 + 10000
    rw [e4']; omega
  | ⟨1, _⟩ =>
    show win2_4.index ⟨(i 0).val / 10000, hlt⟩ (1 : Fin 2) * 40 ≤ (i 1).val
      ∧ (i 1).val < win2_4.index ⟨(i 0).val / 10000, hlt⟩ (1 : Fin 2) * 40 + 40
    rw [e5]; omega

/-- After the region the output array is the whole result of the arrays as the region found them. -/
theorem final (c : Dev nD) :
    (dat2 V c).arrAt 4 cfg2.N = Spec.logSoftmax (Spec.logits (M := 100000) (K := 16) (N := 40) (V c main_v58) (fun j => (V c main_v59 : S1x16.Idx → EReal) (ix2 (0 : Fin 1) (j 0))) (V c main_arg6) (fun j => (V c main_v60 : S1x40.Idx → EReal) (ix2 (0 : Fin 1) (j 0)))) :=
  (dat2 V c).arrAt_eq_of_cover 4 _ (fun t _ => flushed_eq V c t) (cover c)

end Cert.KernelIdeal.Region2

end
-- ==== Proof.RefStages.lean ====
/-
  The reference, stage by stage, as the specification.

  The reference computes the features `x · W₁`, aggregates them over the graph (gather along the edges' sources,
  scale by the edge weights, scatter-add into the destinations), applies `relu (· + b₁) · W₂`, aggregates again, and
  ends with the classifier's logits and their row-wise log-softmax. The two aggregations are carried as functions of
  their input features and never opened: the kernel's program applies the very same host operations. The dense
  stages are the specification's functions entry by entry: a host `dot_general` is the contraction, a bias is
  broadcast over the rows, `relu` is `max · 0`, and jax's log-softmax subtracts the row maximum (taken once more
  against `-∞`, which changes nothing) and the logarithm of the row's sum of exponentials.
-/
import proofs.«164419_j34832184770970_1_alg».proof.Proof.RefReadP
import proofs.«164419_j34832184770970_1_alg».proof.Proof.GcnSpec
import proofs.«164419_j34832184770970_1_alg».proof.Proof.LibRowOps

noncomputable section

namespace Cert.ReferenceIdeal.Stages

open Cert.ReferenceIdeal Cert.ReferenceIdeal.Gen Cert.ReferenceIdeal.ReadP Idealize.ShloMosaic Idealize.ShloMosaic.ValueIdx Gcn

/-- The first graph aggregation, of 128-wide features `h`. -/
def agg1 (x1 : (⟨S2x1600000, .i32⟩ : BufTy).Contents (Elt Ideal)) (h : (⟨S100000x128, .f32⟩ : BufTy).Contents (Elt Ideal)) : (⟨S100000x128, .f32⟩ : BufTy).Contents (Elt Ideal) :=
  Host.scatterAdd (F := Ideal) (φ := .f32) scatter_S100000x128_S1700000x1_S1700000x128_1_0_0_1 (val_main_v41 (F := Ideal)) (val_main_v42 (F := Ideal) x1)
    (mulf (F := Ideal) (φ := .f32) (Host.gather (α := Ideal .f32) gather_S100000x128_S1700000x1_S1700000x128_1_0_n_n_0_1_1128 h (val_main_v36 (F := Ideal) x1)) (val_main_v39 (F := Ideal) x1))

/-- The second graph aggregation, of 16-wide features `h`. -/
def agg2 (x1 : (⟨S2x1600000, .i32⟩ : BufTy).Contents (Elt Ideal)) (h : (⟨S100000x16, .f32⟩ : BufTy).Contents (Elt Ideal)) : (⟨S100000x16, .f32⟩ : BufTy).Contents (Elt Ideal) :=
  Host.scatterAdd (F := Ideal) (φ := .f32) scatter_S100000x16_S1700000x1_S1700000x16_1_0_0_1 (val_main_v59 (F := Ideal)) (val_main_v60 (F := Ideal) x1)
    (mulf (F := Ideal) (φ := .f32) (Host.gather (α := Ideal .f32) gather_S100000x16_S1700000x1_S1700000x16_1_0_n_n_0_1_116 h (val_main_v54 (F := Ideal) x1)) (val_main_v57 (F := Ideal) x1))

theorem v43_eq (x0 : (⟨S100000x512, .f32⟩ : BufTy).Contents (Elt Ideal)) (x1 : (⟨S2x1600000, .i32⟩ : BufTy).Contents (Elt Ideal)) (x2 : (⟨S512x128, .f32⟩ : BufTy).Contents (Elt Ideal)) : val_main_v43 (F := Ideal) x0 x1 x2 = agg1 x1 (val_main_v30 (F := Ideal) x0 x2) := rfl

theorem v61_eq (x0 : (⟨S100000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x16, .f32⟩ : BufTy).Contents (Elt Ideal)) :
    val_main_v61 (F := Ideal) x0 x1 x2 x3 x4 = agg2 x1 (val_main_v48 (F := Ideal) x0 x1 x2 x3 x4) := rfl

/-- The feature transform is the matrix product. -/
theorem v30_eq (x0 : (⟨S100000x512, .f32⟩ : BufTy).Contents (Elt Ideal)) (x2 : (⟨S512x128, .f32⟩ : BufTy).Contents (Elt Ideal)) :
    val_main_v30 (F := Ideal) x0 x2 = Spec.mm (M := 100000) (K := 512) (N := 128) x0 x2 := by
  funext i
  obtain ⟨p, q, rfl⟩ : ∃ (p : Fin 100000) (q : Fin 128), i = ix2 p q := ⟨i 0, i 1, eq_ix2 i⟩
  rw [val_main_v30_apply, Spec.mm_apply]
  refine Finset.sum_congr rfl fun k _ => ?_
  have el : lidx_main_v30 (ix2 p q) k = ix2 p k := funext fun a => Fin.ext (by match a with | ⟨0, _⟩ => rfl | ⟨1, _⟩ => rfl)
  have er : ridx_main_v30 (ix2 p q) k = ix2 k q := funext fun a => Fin.ext (by match a with | ⟨0, _⟩ => rfl | ⟨1, _⟩ => rfl)
  rw [el, er]

/-- The second layer's dense part is `relu (A + b₁) · W₂` of the aggregated features `A`. -/
theorem v48_eq (x0 : (⟨S100000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x16, .f32⟩ : BufTy).Contents (Elt Ideal)) :
    val_main_v48 (F := Ideal) x0 x1 x2 x3 x4
      = Spec.layer (M := 100000) (K := 128) (N := 16) (val_main_v43 (F := Ideal) x0 x1 x2) x3 x4 := by
  funext i
  obtain ⟨p, q, rfl⟩ : ∃ (p : Fin 100000) (q : Fin 16), i = ix2 p q := ⟨i 0, i 1, eq_ix2 i⟩
  rw [val_main_v48_apply, Spec.layer_apply]
  refine Finset.sum_congr rfl fun k _ => ?_
  have el : lidx_main_v48 (ix2 p q) k = ix2 p k := funext fun a => Fin.ext (by match a with | ⟨0, _⟩ => rfl | ⟨1, _⟩ => rfl)
  have er : ridx_main_v48 (ix2 p q) k = ix2 k q := funext fun a => Fin.ext (by match a with | ⟨0, _⟩ => rfl | ⟨1, _⟩ => rfl)
  have eb : idx_main_v44 (idx_main_v45 (ix2 p k)) = ix1 k := funext fun a => Fin.ext (by match a with | ⟨0, _⟩ => rfl)
  rw [el, er, val_main_v47_apply, val_main_v46_apply, val_main_v45_apply, val_main_v44_apply, val_main_call1_v0_apply,
    val_main_call1_cst_apply, eb]
  rfl

/-- The logits, entry by entry. -/
theorem v69_apply (x0 : (⟨S100000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x16, .f32⟩ : BufTy).Contents (Elt Ideal)) (x5 : (⟨S16, .f32⟩ : BufTy).Contents (Elt Ideal)) (x6 : (⟨S16x40, .f32⟩ : BufTy).Contents (Elt Ideal)) (x7 : (⟨S40, .f32⟩ : BufTy).Contents (Elt Ideal)) (p : Fin 100000) (q : Fin 40) :
    val_main_v69 (F := Ideal) x0 x1 x2 x3 x4 x5 x6 x7 (ix2 p q)
      = Spec.logits (M := 100000) (K := 16) (N := 40) (val_main_v61 (F := Ideal) x0 x1 x2 x3 x4) x5 x6 x7 (ix2 p q) := by
  have ec : idx_main_v67 (idx_main_v68 (ix2 p q)) = ix1 q := funext fun a => Fin.ext (by match a with | ⟨0, _⟩ => rfl)
  rw [val_main_v69_apply, val_main_v66_apply, val_main_v68_apply, val_main_v67_apply, ec, Spec.logits_apply]
  refine congrArg (· + x7 (ix1 q)) (Finset.sum_congr rfl fun k _ => ?_)
  have el : lidx_main_v66 (ix2 p q) k = ix2 p k := funext fun a => Fin.ext (by match a with | ⟨0, _⟩ => rfl | ⟨1, _⟩ => rfl)
  have er : ridx_main_v66 (ix2 p q) k = ix2 k q := funext fun a => Fin.ext (by match a with | ⟨0, _⟩ => rfl | ⟨1, _⟩ => rfl)
  have eb : idx_main_v62 (idx_main_v63 (ix2 p k)) = ix1 k := funext fun a => Fin.ext (by match a with | ⟨0, _⟩ => rfl)
  rw [el, er, val_main_v65_apply, val_main_v64_apply, val_main_v63_apply, val_main_v62_apply, val_main_call2_v0_apply,
    val_main_call2_cst_apply, eb]
  rfl

/-- The row maximum jax subtracts, broadcast back over the row. -/
theorem call3_v4_apply (x0 : (⟨S100000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x16, .f32⟩ : BufTy).Contents (Elt Ideal)) (x5 : (⟨S16, .f32⟩ : BufTy).Contents (Elt Ideal)) (x6 : (⟨S16x40, .f32⟩ : BufTy).Contents (Elt Ideal)) (x7 : (⟨S40, .f32⟩ : BufTy).Contents (Elt Ideal)) (p : Fin 100000) (q : Fin 40) :
    val_main_call3_v4 (F := Ideal) x0 x1 x2 x3 x4 x5 x6 x7 (ix2 p q)
      = Spec.rowMax (Spec.logits (M := 100000) (K := 16) (N := 40) (val_main_v61 (F := Ideal) x0 x1 x2 x3 x4) x5 x6 x7) p := by
  have e1 : idx_main_call3_v3 (idx_main_call3_v4 (ix2 p q)) = ix1 p := funext fun a => Fin.ext (by match a with | ⟨0, _⟩ => rfl)
  rw [val_main_call3_v4_apply, val_main_call3_v3_apply, e1, val_main_call3_v2_apply, val_main_call3_v1_apply,
    val_main_call3_cst_0_apply]
  unfold val_main_call3_v0
  rw [Lib.hostRowMax_apply _ _ _ (by decide) _ p]
  show max (Ideal.ofBits .f32 0xFF800000#32)
      ((Finset.univ : Finset (Fin 40)).fold max (Ideal.ofBits .f32 0xFF800000#32)
        (fun k => val_main_v69 (F := Ideal) x0 x1 x2 x3 x4 x5 x6 x7 (ix2 p k))) = _
  rw [Lib.ofBits_neg_inf_f32, max_bot_left]
  unfold Spec.rowMax
  exact congrArg (fun f => (Finset.univ : Finset (Fin 40)).fold max ⊥ f) (funext fun k => v69_apply x0 x1 x2 x3 x4 x5 x6 x7 p k)

/-- The shifted logits. -/
theorem call3_v5_apply' (x0 : (⟨S100000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x16, .f32⟩ : BufTy).Contents (Elt Ideal)) (x5 : (⟨S16, .f32⟩ : BufTy).Contents (Elt Ideal)) (x6 : (⟨S16x40, .f32⟩ : BufTy).Contents (Elt Ideal)) (x7 : (⟨S40, .f32⟩ : BufTy).Contents (Elt Ideal)) (p : Fin 100000) (q : Fin 40) :
    val_main_call3_v5 (F := Ideal) x0 x1 x2 x3 x4 x5 x6 x7 (ix2 p q)
      = Spec.logits (M := 100000) (K := 16) (N := 40) (val_main_v61 (F := Ideal) x0 x1 x2 x3 x4) x5 x6 x7 (ix2 p q)
        - Spec.rowMax (Spec.logits (M := 100000) (K := 16) (N := 40) (val_main_v61 (F := Ideal) x0 x1 x2 x3 x4) x5 x6 x7) p := by
  rw [val_main_call3_v5_apply, v69_apply, call3_v4_apply, Ideal.subf_def]

/-- The result is the log-softmax of the logits. -/
theorem v70_eq (x0 : (⟨S100000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x16, .f32⟩ : BufTy).Contents (Elt Ideal)) (x5 : (⟨S16, .f32⟩ : BufTy).Contents (Elt Ideal)) (x6 : (⟨S16x40, .f32⟩ : BufTy).Contents (Elt Ideal)) (x7 : (⟨S40, .f32⟩ : BufTy).Contents (Elt Ideal)) :
    val_main_v70 (F := Ideal) x0 x1 x2 x3 x4 x5 x6 x7
      = Spec.logSoftmax (Spec.logits (M := 100000) (K := 16) (N := 40) (val_main_v61 (F := Ideal) x0 x1 x2 x3 x4) x5 x6 x7) := by
  funext i
  obtain ⟨p, q, rfl⟩ : ∃ (p : Fin 100000) (q : Fin 40), i = ix2 p q := ⟨i 0, i 1, eq_ix2 i⟩
  have e10 : idx_main_call3_v8 (idx_main_call3_v10 (ix2 p q)) = ix1 p := funext fun a => Fin.ext (by match a with | ⟨0, _⟩ => rfl)
  rw [val_main_v70_apply, call3_v5_apply', val_main_call3_v10_apply, val_main_call3_v9_apply, val_main_call3_v8_apply, e10,
    val_main_call3_v7_apply, val_main_call3_cst_1_apply, Spec.logSoftmax_apply, Ideal.subf_def, Ideal.hostUnary_log_def,
    Ideal.ofBits_def, Ideal.ofBits_zero_f32, zero_add]
  refine congrArg (fun s => Spec.logits (M := 100000) (K := 16) (N := 40) (val_main_v61 (F := Ideal) x0 x1 x2 x3 x4) x5 x6 x7 (ix2 p q)
      - Spec.rowMax (Spec.logits (M := 100000) (K := 16) (N := 40) (val_main_v61 (F := Ideal) x0 x1 x2 x3 x4) x5 x6 x7) p
      - Ideal.log s) (Finset.sum_congr rfl fun k _ => ?_)
  have e7 : idx_main_call3_v7 (ix1 p) k = ix2 p k := funext fun a => Fin.ext (by match a with | ⟨0, _⟩ => rfl | ⟨1, _⟩ => rfl)
  rw [e7, val_main_call3_v6_apply, call3_v5_apply', Ideal.hostUnary_exp_def]

/-- The whole network as one function of the arguments. -/
def out (x0 : (⟨S100000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x16, .f32⟩ : BufTy).Contents (Elt Ideal)) (x5 : (⟨S16, .f32⟩ : BufTy).Contents (Elt Ideal)) (x6 : (⟨S16x40, .f32⟩ : BufTy).Contents (Elt Ideal)) (x7 : (⟨S40, .f32⟩ : BufTy).Contents (Elt Ideal)) : (⟨S100000x40, .f32⟩ : BufTy).Contents (Elt Ideal) :=
  Spec.logSoftmax (Spec.logits (M := 100000) (K := 16) (N := 40)
    (agg2 x1 (Spec.layer (M := 100000) (K := 128) (N := 16) (agg1 x1 (Spec.mm (M := 100000) (K := 512) (N := 128) x0 x2)) x3 x4)) x5 x6 x7)

/-- The reference's result is that function. -/
theorem ref_out (x0 : (⟨S100000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x16, .f32⟩ : BufTy).Contents (Elt Ideal)) (x5 : (⟨S16, .f32⟩ : BufTy).Contents (Elt Ideal)) (x6 : (⟨S16x40, .f32⟩ : BufTy).Contents (Elt Ideal)) (x7 : (⟨S40, .f32⟩ : BufTy).Contents (Elt Ideal)) : val_main_v70 (F := Ideal) x0 x1 x2 x3 x4 x5 x6 x7 = out x0 x1 x2 x3 x4 x5 x6 x7 := by
  rw [v70_eq, v61_eq, v48_eq, v43_eq, v30_eq]
  rfl

end Cert.ReferenceIdeal.Stages

end
-- ==== Proof.HostB.lean ====
/-
  The host side of the kernel's program, second part, and the program's result.

  Between and after the kernel regions the program aggregates over the graph exactly as the reference does: it gathers
  the features along the edges' sources, scales them by the edge weights and scatter-adds them into the destinations.
  Each kernel region leaves in its output array the specification's function of the arrays it was entered with; the
  biases reach the second and third regions reshaped into one-row matrices. Chained through the program's boundaries,
  the result buffer ends at the whole network's function of the argument arrays.
-/
import proofs.«164419_j34832184770970_1_alg».proof.Proof.HostA
import proofs.«164419_j34832184770970_1_alg».proof.Proof.Region0
import proofs.«164419_j34832184770970_1_alg».proof.Proof.Region1
import proofs.«164419_j34832184770970_1_alg».proof.Proof.Region2
import proofs.«164419_j34832184770970_1_alg».proof.Proof.RefStages
import Idealize.ShloMosaic.Lib.ValueLayout

set_option maxRecDepth 16384

noncomputable section

namespace Cert.KernelIdeal.HostB

open Cert.KernelIdeal Cert.KernelIdeal.Gen Idealize.ShloMosaic Idealize.ShloMosaic.TcCoe Idealize.SL.Sem
open Idealize.ShloMosaic.StableHlo Idealize.ShloMosaic.ValueIdx Gcn

variable (m : (ℓ : Loc nD τ sig) → Buf (Elt Ideal) ℓ) (ρ : Dev nD → PrngReg)

/-! ## The argument arrays at the first region's entry -/

theorem arg0_3 (c : Dev nD) : W3 m ρ c (Proc.devRef .tc main_arg0) = m ((c : Thread nD τ).loc main_arg0) := by
  show after hostOps0_2 (after hostOps0_1 (after hostOps0 (W0 m ρ c))) (Proc.devRef .tc main_arg0) = _
  after_results_simp

theorem arg2_3 (c : Dev nD) : W3 m ρ c (Proc.devRef .tc main_arg2) = m ((c : Thread nD τ).loc main_arg2) := by
  show after hostOps0_2 (after hostOps0_1 (after hostOps0 (W0 m ρ c))) (Proc.devRef .tc main_arg2) = _
  after_results_simp

theorem arg3_3 (c : Dev nD) : W3 m ρ c (Proc.devRef .tc main_arg3) = m ((c : Thread nD τ).loc main_arg3) := by
  show after hostOps0_2 (after hostOps0_1 (after hostOps0 (W0 m ρ c))) (Proc.devRef .tc main_arg3) = _
  after_results_simp

theorem arg4_3 (c : Dev nD) : W3 m ρ c (Proc.devRef .tc main_arg4) = m ((c : Thread nD τ).loc main_arg4) := by
  show after hostOps0_2 (after hostOps0_1 (after hostOps0 (W0 m ρ c))) (Proc.devRef .tc main_arg4) = _
  after_results_simp

theorem arg5_3 (c : Dev nD) : W3 m ρ c (Proc.devRef .tc main_arg5) = m ((c : Thread nD τ).loc main_arg5) := by
  show after hostOps0_2 (after hostOps0_1 (after hostOps0 (W0 m ρ c))) (Proc.devRef .tc main_arg5) = _
  after_results_simp

theorem arg6_3 (c : Dev nD) : W3 m ρ c (Proc.devRef .tc main_arg6) = m ((c : Thread nD τ).loc main_arg6) := by
  show after hostOps0_2 (after hostOps0_1 (after hostOps0 (W0 m ρ c))) (Proc.devRef .tc main_arg6) = _
  after_results_simp

theorem arg7_3 (c : Dev nD) : W3 m ρ c (Proc.devRef .tc main_arg7) = m ((c : Thread nD τ).loc main_arg7) := by
  show after hostOps0_2 (after hostOps0_1 (after hostOps0 (W0 m ρ c))) (Proc.devRef .tc main_arg7) = _
  after_results_simp

/-! ## After the first region: the features -/

theorem v30_4 (c : Dev nD) :
    W4 m ρ c (Proc.devRef .tc main_v30)
      = Spec.mm (M := 100000) (K := 512) (N := 128) (m ((c : Thread nD τ).loc main_arg0)) (m ((c : Thread nD τ).loc main_arg2)) := by
  refine (W4_arr m ρ c 2).trans ((Region0.final (V3 m ρ) c).trans ?_)
  show Spec.mm (M := 100000) (K := 512) (N := 128) (W3 m ρ c (Proc.devRef .tc main_arg0)) (W3 m ρ c (Proc.devRef .tc main_arg2)) = _
  rw [arg0_3, arg2_3]

theorem v3_4 (c : Dev nD) : W4 m ρ c (Proc.devRef .tc main_v3) = Cert.ReferenceIdeal.ReadP.val_main_v3 (F := Ideal) (m ((c : Thread nD τ).loc main_arg1)) :=
  (W4_of_ne m ρ c main_v3 (by decide)).trans (HostA.v3_3 m ρ c)

theorem v6_4 (c : Dev nD) : W4 m ρ c (Proc.devRef .tc main_v6) = Cert.ReferenceIdeal.ReadP.val_main_v6 (F := Ideal) (m ((c : Thread nD τ).loc main_arg1)) :=
  (W4_of_ne m ρ c main_v6 (by decide)).trans (HostA.v6_3 m ρ c)

theorem v29_4 (c : Dev nD) : W4 m ρ c (Proc.devRef .tc main_v29) = Cert.ReferenceIdeal.ReadP.val_main_v29 (F := Ideal) (m ((c : Thread nD τ).loc main_arg1)) :=
  (W4_of_ne m ρ c main_v29 (by decide)).trans (HostA.v29_3 m ρ c)

theorem arg3_4 (c : Dev nD) : W4 m ρ c (Proc.devRef .tc main_arg3) = m ((c : Thread nD τ).loc main_arg3) :=
  (W4_of_ne m ρ c main_arg3 (by decide)).trans (arg3_3 m ρ c)

theorem arg4_4 (c : Dev nD) : W4 m ρ c (Proc.devRef .tc main_arg4) = m ((c : Thread nD τ).loc main_arg4) :=
  (W4_of_ne m ρ c main_arg4 (by decide)).trans (arg4_3 m ρ c)

theorem arg5_4 (c : Dev nD) : W4 m ρ c (Proc.devRef .tc main_arg5) = m ((c : Thread nD τ).loc main_arg5) :=
  (W4_of_ne m ρ c main_arg5 (by decide)).trans (arg5_3 m ρ c)

theorem arg6_4 (c : Dev nD) : W4 m ρ c (Proc.devRef .tc main_arg6) = m ((c : Thread nD τ).loc main_arg6) :=
  (W4_of_ne m ρ c main_arg6 (by decide)).trans (arg6_3 m ρ c)

theorem arg7_4 (c : Dev nD) : W4 m ρ c (Proc.devRef .tc main_arg7) = m ((c : Thread nD τ).loc main_arg7) :=
  (W4_of_ne m ρ c main_arg7 (by decide)).trans (arg7_3 m ρ c)

/-! ## At the second region's entry: the first aggregation, the bias row -/

theorem v43_5 (c : Dev nD) :
    W5 m ρ c (Proc.devRef .tc main_v43) = Cert.ReferenceIdeal.Stages.agg1 (m ((c : Thread nD τ).loc main_arg1)) (W4 m ρ c (Proc.devRef .tc main_v30)) := by
  show after hostOps1 (W4 m ρ c) (Proc.devRef .tc main_v43) = _
  after_results_simp
  rw [v3_4, v6_4, v29_4]
  rfl

theorem v44_5 (c : Dev nD) :
    (fun j : (⟨1, ![128]⟩ : Shape).Idx => (W5 m ρ c (Proc.devRef .tc main_v44) : S1x128.Idx → EReal) (ix2 (0 : Fin 1) (j 0)))
      = m ((c : Thread nD τ).loc main_arg3) := by
  funext j
  show (after hostOps1 (W4 m ρ c) (Proc.devRef .tc main_v44) : S1x128.Idx → EReal) (ix2 (0 : Fin 1) (j 0)) = _
  after_results_simp
  rw [arg3_4]
  exact (shapeCast_a_1a_apply _ _ (0 : Fin 1) (j 0)).trans (congrArg _ (eq_ix1 j).symm)

theorem arg4_5 (c : Dev nD) : W5 m ρ c (Proc.devRef .tc main_arg4) = m ((c : Thread nD τ).loc main_arg4) := by
  show after hostOps1 (W4 m ρ c) (Proc.devRef .tc main_arg4) = _
  after_results_simp
  exact arg4_4 m ρ c

theorem v3_5 (c : Dev nD) : W5 m ρ c (Proc.devRef .tc main_v3) = Cert.ReferenceIdeal.ReadP.val_main_v3 (F := Ideal) (m ((c : Thread nD τ).loc main_arg1)) := by
  show after hostOps1 (W4 m ρ c) (Proc.devRef .tc main_v3) = _
  after_results_simp
  exact v3_4 m ρ c

theorem v6_5 (c : Dev nD) : W5 m ρ c (Proc.devRef .tc main_v6) = Cert.ReferenceIdeal.ReadP.val_main_v6 (F := Ideal) (m ((c : Thread nD τ).loc main_arg1)) := by
  show after hostOps1 (W4 m ρ c) (Proc.devRef .tc main_v6) = _
  after_results_simp
  exact v6_4 m ρ c

theorem v29_5 (c : Dev nD) : W5 m ρ c (Proc.devRef .tc main_v29) = Cert.ReferenceIdeal.ReadP.val_main_v29 (F := Ideal) (m ((c : Thread nD τ).loc main_arg1)) := by
  show after hostOps1 (W4 m ρ c) (Proc.devRef .tc main_v29) = _
  after_results_simp
  exact v29_4 m ρ c

theorem arg5_5 (c : Dev nD) : W5 m ρ c (Proc.devRef .tc main_arg5) = m ((c : Thread nD τ).loc main_arg5) := by
  show after hostOps1 (W4 m ρ c) (Proc.devRef .tc main_arg5) = _
  after_results_simp
  exact arg5_4 m ρ c

theorem arg6_5 (c : Dev nD) : W5 m ρ c (Proc.devRef .tc main_arg6) = m ((c : Thread nD τ).loc main_arg6) := by
  show after hostOps1 (W4 m ρ c) (Proc.devRef .tc main_arg6) = _
  after_results_simp
  exact arg6_4 m ρ c

theorem arg7_5 (c : Dev nD) : W5 m ρ c (Proc.devRef .tc main_arg7) = m ((c : Thread nD τ).loc main_arg7) := by
  show after hostOps1 (W4 m ρ c) (Proc.devRef .tc main_arg7) = _
  after_results_simp
  exact arg7_4 m ρ c

/-! ## After the second region: the second layer's features -/

theorem v45_6 (c : Dev nD) :
    W6 m ρ c (Proc.devRef .tc main_v45)
      = Spec.layer (M := 100000) (K := 128) (N := 16)
          (Cert.ReferenceIdeal.Stages.agg1 (m ((c : Thread nD τ).loc main_arg1)) (Spec.mm (M := 100000) (K := 512) (N := 128) (m ((c : Thread nD τ).loc main_arg0)) (m ((c : Thread nD τ).loc main_arg2)))) (m ((c : Thread nD τ).loc main_arg3)) (m ((c : Thread nD τ).loc main_arg4)) := by
  refine (W6_arr m ρ c 3).trans ((Region1.final (V5 m ρ) c).trans ?_)
  show Spec.layer (M := 100000) (K := 128) (N := 16) (W5 m ρ c (Proc.devRef .tc main_v43))
      (fun j => (W5 m ρ c (Proc.devRef .tc main_v44) : S1x128.Idx → EReal) (ix2 (0 : Fin 1) (j 0)))
      (W5 m ρ c (Proc.devRef .tc main_arg4)) = _
  rw [v43_5, v44_5, arg4_5, v30_4]

theorem v3_6 (c : Dev nD) : W6 m ρ c (Proc.devRef .tc main_v3) = Cert.ReferenceIdeal.ReadP.val_main_v3 (F := Ideal) (m ((c : Thread nD τ).loc main_arg1)) :=
  (W6_of_ne m ρ c main_v3 (by decide)).trans (v3_5 m ρ c)

theorem v6_6 (c : Dev nD) : W6 m ρ c (Proc.devRef .tc main_v6) = Cert.ReferenceIdeal.ReadP.val_main_v6 (F := Ideal) (m ((c : Thread nD τ).loc main_arg1)) :=
  (W6_of_ne m ρ c main_v6 (by decide)).trans (v6_5 m ρ c)

theorem v29_6 (c : Dev nD) : W6 m ρ c (Proc.devRef .tc main_v29) = Cert.ReferenceIdeal.ReadP.val_main_v29 (F := Ideal) (m ((c : Thread nD τ).loc main_arg1)) :=
  (W6_of_ne m ρ c main_v29 (by decide)).trans (v29_5 m ρ c)

theorem arg5_6 (c : Dev nD) : W6 m ρ c (Proc.devRef .tc main_arg5) = m ((c : Thread nD τ).loc main_arg5) :=
  (W6_of_ne m ρ c main_arg5 (by decide)).trans (arg5_5 m ρ c)

theorem arg6_6 (c : Dev nD) : W6 m ρ c (Proc.devRef .tc main_arg6) = m ((c : Thread nD τ).loc main_arg6) :=
  (W6_of_ne m ρ c main_arg6 (by decide)).trans (arg6_5 m ρ c)

theorem arg7_6 (c : Dev nD) : W6 m ρ c (Proc.devRef .tc main_arg7) = m ((c : Thread nD τ).loc main_arg7) :=
  (W6_of_ne m ρ c main_arg7 (by decide)).trans (arg7_5 m ρ c)

/-! ## At the third region's entry: the second aggregation, the two bias rows -/

theorem v58_7 (c : Dev nD) :
    W7 m ρ c (Proc.devRef .tc main_v58) = Cert.ReferenceIdeal.Stages.agg2 (m ((c : Thread nD τ).loc main_arg1)) (W6 m ρ c (Proc.devRef .tc main_v45)) := by
  show after hostOps2 (W6 m ρ c) (Proc.devRef .tc main_v58) = _
  after_results_simp
  rw [v3_6, v6_6, v29_6]
  rfl

theorem v59_7 (c : Dev nD) :
    (fun j : (⟨1, ![16]⟩ : Shape).Idx => (W7 m ρ c (Proc.devRef .tc main_v59) : S1x16.Idx → EReal) (ix2 (0 : Fin 1) (j 0)))
      = m ((c : Thread nD τ).loc main_arg5) := by
  funext j
  show (after hostOps2 (W6 m ρ c) (Proc.devRef .tc main_v59) : S1x16.Idx → EReal) (ix2 (0 : Fin 1) (j 0)) = _
  after_results_simp
  rw [arg5_6]
  exact (shapeCast_a_1a_apply _ _ (0 : Fin 1) (j 0)).trans (congrArg _ (eq_ix1 j).symm)

theorem v60_7 (c : Dev nD) :
    (fun j : (⟨1, ![40]⟩ : Shape).Idx => (W7 m ρ c (Proc.devRef .tc main_v60) : S1x40.Idx → EReal) (ix2 (0 : Fin 1) (j 0)))
      = m ((c : Thread nD τ).loc main_arg7) := by
  funext j
  show (after hostOps2 (W6 m ρ c) (Proc.devRef .tc main_v60) : S1x40.Idx → EReal) (ix2 (0 : Fin 1) (j 0)) = _
  after_results_simp
  rw [arg7_6]
  exact (shapeCast_a_1a_apply _ _ (0 : Fin 1) (j 0)).trans (congrArg _ (eq_ix1 j).symm)

theorem arg6_7 (c : Dev nD) : W7 m ρ c (Proc.devRef .tc main_arg6) = m ((c : Thread nD τ).loc main_arg6) := by
  show after hostOps2 (W6 m ρ c) (Proc.devRef .tc main_arg6) = _
  after_results_simp
  exact arg6_6 m ρ c

/-! ## The result -/

/-- After the last region the result buffer holds the whole network's function of the argument arrays. -/
theorem kernel_out (c : Dev nD) :
    W8 m ρ c (Proc.devRef .tc main_v61)
      = Cert.ReferenceIdeal.Stages.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 4).trans ((Region2.final (V7 m ρ) c).trans ?_)
  show Spec.logSoftmax (Spec.logits (M := 100000) (K := 16) (N := 40) (W7 m ρ c (Proc.devRef .tc main_v58))
      (fun j => (W7 m ρ c (Proc.devRef .tc main_v59) : S1x16.Idx → EReal) (ix2 (0 : Fin 1) (j 0)))
      (W7 m ρ c (Proc.devRef .tc main_arg6))
      (fun j => (W7 m ρ c (Proc.devRef .tc main_v60) : S1x40.Idx → EReal) (ix2 (0 : Fin 1) (j 0)))) = _
  rw [v58_7, v59_7, v60_7, arg6_7, v45_6]
  rfl

end Cert.KernelIdeal.HostB

end
-- ==== Proof.RefRun.lean ====
/-
  The reference's run, read in eleven stretches.

  The reference is a straight line of host operations. Its buffers after the run are the fold of the operations'
  results over the launch memory. The fold is read stretch by stretch — the edge endpoints and the degrees; the
  inverse square roots; the edge weights; the features; the first aggregation; the second layer; the second
  aggregation; the logits; their log-softmax in three steps (the row maxima, the shifted logits and their exponentials, the
  result) — each value from the values the stretches before left, so that the
  result buffer is the last stage function of the argument arrays, and with it the whole network's function. No
  operation writes an argument array.
-/
import proofs.«164419_j34832184770970_1_alg».proof.Proof.RefStages
import proofs.«164419_j34832184770970_1_alg».proof.Proof.RefSegsP
import Idealize.ShloMosaic.Lib.StableHlo.Run

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- The fold over a concatenation is the fold over the second list from the fold over the first. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- The buffers' contents at the eleven boundaries, from contents `V` before the first operation. -/
abbrev B1 (V : Valuation τ sig (Elt Ideal)) : Valuation τ sig (Elt Ideal) := after s0 V
abbrev B2 (V : Valuation τ sig (Elt Ideal)) : Valuation τ sig (Elt Ideal) := after s1 (B1 V)
abbrev B3 (V : Valuation τ sig (Elt Ideal)) : Valuation τ sig (Elt Ideal) := after s2 (B2 V)
abbrev B4 (V : Valuation τ sig (Elt Ideal)) : Valuation τ sig (Elt Ideal) := after s3 (B3 V)
abbrev B5 (V : Valuation τ sig (Elt Ideal)) : Valuation τ sig (Elt Ideal) := after s4 (B4 V)
abbrev B6 (V : Valuation τ sig (Elt Ideal)) : Valuation τ sig (Elt Ideal) := after s5 (B5 V)
abbrev B7 (V : Valuation τ sig (Elt Ideal)) : Valuation τ sig (Elt Ideal) := after s6 (B6 V)
abbrev B8 (V : Valuation τ sig (Elt Ideal)) : Valuation τ sig (Elt Ideal) := after s7 (B7 V)
abbrev B9 (V : Valuation τ sig (Elt Ideal)) : Valuation τ sig (Elt Ideal) := after s8 (B8 V)
abbrev B10 (V : Valuation τ sig (Elt Ideal)) : Valuation τ sig (Elt Ideal) := after s9 (B9 V)
abbrev B11 (V : Valuation τ sig (Elt Ideal)) : Valuation τ sig (Elt Ideal) := after s10 (B10 V)

theorem after_ops (V : Valuation τ sig (Elt Ideal)) : after (ops (F := Ideal)) V = B11 V := by
  rw [ops_eq, after_append, after_append, after_append, after_append, after_append, after_append, after_append, after_append,
    after_append, after_append]

/-! ## The edge endpoints and the argument arrays, read directly at the boundaries where they are used -/

theorem v3_1 (V : Valuation τ sig (Elt Ideal)) : B1 V (Proc.devRef .tc main_v3) = val_main_v3 (F := Ideal) (V (Proc.devRef .tc main_arg1)) := by
  after_results_simp
  rfl

theorem v6_1 (V : Valuation τ sig (Elt Ideal)) : B1 V (Proc.devRef .tc main_v6) = val_main_v6 (F := Ideal) (V (Proc.devRef .tc main_arg1)) := by
  after_results_simp
  rfl

theorem v12_1 (V : Valuation τ sig (Elt Ideal)) : B1 V (Proc.devRef .tc main_v12) = val_main_v12 (F := Ideal) (V (Proc.devRef .tc main_arg1)) := by
  after_results_simp
  rfl

theorem v13_1 (V : Valuation τ sig (Elt Ideal)) : B1 V (Proc.devRef .tc main_v13) = val_main_v13 (F := Ideal) (V (Proc.devRef .tc main_arg1)) := by
  after_results_simp
  rfl

theorem cst2_1 (V : Valuation τ sig (Elt Ideal)) : B1 V (Proc.devRef .tc main_cst_2) = val_main_cst_2 (F := Ideal) := by
  after_results_simp
  rfl

theorem v3_2 (V : Valuation τ sig (Elt Ideal)) : B2 V (Proc.devRef .tc main_v3) = val_main_v3 (F := Ideal) (V (Proc.devRef .tc main_arg1)) := by
  after_results_simp
  rfl

theorem v6_2 (V : Valuation τ sig (Elt Ideal)) : B2 V (Proc.devRef .tc main_v6) = val_main_v6 (F := Ideal) (V (Proc.devRef .tc main_arg1)) := by
  after_results_simp
  rfl

theorem a0_3 (V : Valuation τ sig (Elt Ideal)) : B3 V (Proc.devRef .tc main_arg0) = V (Proc.devRef .tc main_arg0) := by
  after_results_simp

theorem a2_3 (V : Valuation τ sig (Elt Ideal)) : B3 V (Proc.devRef .tc main_arg2) = V (Proc.devRef .tc main_arg2) := by
  after_results_simp

theorem v3_4 (V : Valuation τ sig (Elt Ideal)) : B4 V (Proc.devRef .tc main_v3) = val_main_v3 (F := Ideal) (V (Proc.devRef .tc main_arg1)) := by
  after_results_simp
  rfl

theorem v6_4 (V : Valuation τ sig (Elt Ideal)) : B4 V (Proc.devRef .tc main_v6) = val_main_v6 (F := Ideal) (V (Proc.devRef .tc main_arg1)) := by
  after_results_simp
  rfl

theorem a3_5 (V : Valuation τ sig (Elt Ideal)) : B5 V (Proc.devRef .tc main_arg3) = V (Proc.devRef .tc main_arg3) := by
  after_results_simp

theorem a4_5 (V : Valuation τ sig (Elt Ideal)) : B5 V (Proc.devRef .tc main_arg4) = V (Proc.devRef .tc main_arg4) := by
  after_results_simp

theorem v3_6 (V : Valuation τ sig (Elt Ideal)) : B6 V (Proc.devRef .tc main_v3) = val_main_v3 (F := Ideal) (V (Proc.devRef .tc main_arg1)) := by
  after_results_simp
  rfl

theorem v6_6 (V : Valuation τ sig (Elt Ideal)) : B6 V (Proc.devRef .tc main_v6) = val_main_v6 (F := Ideal) (V (Proc.devRef .tc main_arg1)) := by
  after_results_simp
  rfl

theorem a5_7 (V : Valuation τ sig (Elt Ideal)) : B7 V (Proc.devRef .tc main_arg5) = V (Proc.devRef .tc main_arg5) := by
  after_results_simp

theorem a6_7 (V : Valuation τ sig (Elt Ideal)) : B7 V (Proc.devRef .tc main_arg6) = V (Proc.devRef .tc main_arg6) := by
  after_results_simp

theorem a7_7 (V : Valuation τ sig (Elt Ideal)) : B7 V (Proc.devRef .tc main_arg7) = V (Proc.devRef .tc main_arg7) := by
  after_results_simp

theorem a0_11 (V : Valuation τ sig (Elt Ideal)) : B11 V (Proc.devRef .tc main_arg0) = V (Proc.devRef .tc main_arg0) := by
  after_results_simp

theorem a1_11 (V : Valuation τ sig (Elt Ideal)) : B11 V (Proc.devRef .tc main_arg1) = V (Proc.devRef .tc main_arg1) := by
  after_results_simp

theorem a2_11 (V : Valuation τ sig (Elt Ideal)) : B11 V (Proc.devRef .tc main_arg2) = V (Proc.devRef .tc main_arg2) := by
  after_results_simp

theorem a3_11 (V : Valuation τ sig (Elt Ideal)) : B11 V (Proc.devRef .tc main_arg3) = V (Proc.devRef .tc main_arg3) := by
  after_results_simp

theorem a4_11 (V : Valuation τ sig (Elt Ideal)) : B11 V (Proc.devRef .tc main_arg4) = V (Proc.devRef .tc main_arg4) := by
  after_results_simp

theorem a5_11 (V : Valuation τ sig (Elt Ideal)) : B11 V (Proc.devRef .tc main_arg5) = V (Proc.devRef .tc main_arg5) := by
  after_results_simp

theorem a6_11 (V : Valuation τ sig (Elt Ideal)) : B11 V (Proc.devRef .tc main_arg6) = V (Proc.devRef .tc main_arg6) := by
  after_results_simp

theorem a7_11 (V : Valuation τ sig (Elt Ideal)) : B11 V (Proc.devRef .tc main_arg7) = V (Proc.devRef .tc main_arg7) := by
  after_results_simp

/-! ## The edge weights survive the stretches that do not write them -/

theorem keep_v29_s3 (V : Valuation τ sig (Elt Ideal)) : after s3 V (Proc.devRef .tc main_v29) = V (Proc.devRef .tc main_v29) := by
  after_results_simp

theorem keep_v29_s4 (V : Valuation τ sig (Elt Ideal)) : after s4 V (Proc.devRef .tc main_v29) = V (Proc.devRef .tc main_v29) := by
  after_results_simp

theorem keep_v29_s5 (V : Valuation τ sig (Elt Ideal)) : after s5 V (Proc.devRef .tc main_v29) = V (Proc.devRef .tc main_v29) := by
  after_results_simp

/-! ## What each stretch computes from what the stretches before left -/

theorem st1_v14 (V : Valuation τ sig (Elt Ideal)) (x1 : (⟨S2x1600000, .i32⟩ : BufTy).Contents (Elt Ideal))
    (h12 : V (Proc.devRef .tc main_v12) = val_main_v12 (F := Ideal) x1) (h13 : V (Proc.devRef .tc main_v13) = val_main_v13 (F := Ideal) x1)
    (hc : V (Proc.devRef .tc main_cst_2) = val_main_cst_2 (F := Ideal)) :
    after s1 V (Proc.devRef .tc main_v14) = val_main_v14 (F := Ideal) x1 := by
  after_results_simp
  simp only [cast_cast, cast_eq]
  rw [h12, h13, hc]
  rfl

theorem st2_v29 (V : Valuation τ sig (Elt Ideal)) (x1 : (⟨S2x1600000, .i32⟩ : BufTy).Contents (Elt Ideal))
    (h3 : V (Proc.devRef .tc main_v3) = val_main_v3 (F := Ideal) x1) (h6 : V (Proc.devRef .tc main_v6) = val_main_v6 (F := Ideal) x1)
    (h14 : V (Proc.devRef .tc main_v14) = val_main_v14 (F := Ideal) x1) :
    after s2 V (Proc.devRef .tc main_v29) = val_main_v29 (F := Ideal) x1 := by
  after_results_simp
  rw [h3, h6, h14]
  rfl

theorem st3_v30 (V : Valuation τ sig (Elt Ideal)) (x0 : (⟨S100000x512, .f32⟩ : BufTy).Contents (Elt Ideal)) (x2 : (⟨S512x128, .f32⟩ : BufTy).Contents (Elt Ideal)) (a0 : V (Proc.devRef .tc main_arg0) = x0) (a2 : V (Proc.devRef .tc main_arg2) = x2) :
    after s3 V (Proc.devRef .tc main_v30) = val_main_v30 (F := Ideal) x0 x2 := by
  after_results_simp
  rw [a0, a2]
  rfl

theorem st4_v43 (V : Valuation τ sig (Elt Ideal)) (x0 : (⟨S100000x512, .f32⟩ : BufTy).Contents (Elt Ideal)) (x1 : (⟨S2x1600000, .i32⟩ : BufTy).Contents (Elt Ideal)) (x2 : (⟨S512x128, .f32⟩ : BufTy).Contents (Elt Ideal))
    (h3 : V (Proc.devRef .tc main_v3) = val_main_v3 (F := Ideal) x1) (h6 : V (Proc.devRef .tc main_v6) = val_main_v6 (F := Ideal) x1)
    (h29 : V (Proc.devRef .tc main_v29) = val_main_v29 (F := Ideal) x1) (h30 : V (Proc.devRef .tc main_v30) = val_main_v30 (F := Ideal) x0 x2) :
    after s4 V (Proc.devRef .tc main_v43) = val_main_v43 (F := Ideal) x0 x1 x2 := by
  after_results_simp
  rw [h3, h6, h29, h30]
  rfl

theorem st5_v48 (V : Valuation τ sig (Elt Ideal)) (x0 : (⟨S100000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x16, .f32⟩ : BufTy).Contents (Elt Ideal))
    (h43 : V (Proc.devRef .tc main_v43) = val_main_v43 (F := Ideal) x0 x1 x2) (a3 : V (Proc.devRef .tc main_arg3) = x3) (a4 : V (Proc.devRef .tc main_arg4) = x4) :
    after s5 V (Proc.devRef .tc main_v48) = val_main_v48 (F := Ideal) x0 x1 x2 x3 x4 := by
  after_results
  simp only [cast_cast, cast_eq]
  rw [h43, a3, a4]
  rfl

theorem st6_v61 (V : Valuation τ sig (Elt Ideal)) (x0 : (⟨S100000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x16, .f32⟩ : BufTy).Contents (Elt Ideal))
    (h3 : V (Proc.devRef .tc main_v3) = val_main_v3 (F := Ideal) x1) (h6 : V (Proc.devRef .tc main_v6) = val_main_v6 (F := Ideal) x1)
    (h29 : V (Proc.devRef .tc main_v29) = val_main_v29 (F := Ideal) x1)
    (h48 : V (Proc.devRef .tc main_v48) = val_main_v48 (F := Ideal) x0 x1 x2 x3 x4) :
    after s6 V (Proc.devRef .tc main_v61) = val_main_v61 (F := Ideal) x0 x1 x2 x3 x4 := by
  after_results_simp
  rw [h3, h6, h29, h48]
  rfl

theorem st7_v69 (V : Valuation τ sig (Elt Ideal)) (x0 : (⟨S100000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x16, .f32⟩ : BufTy).Contents (Elt Ideal)) (x5 : (⟨S16, .f32⟩ : BufTy).Contents (Elt Ideal)) (x6 : (⟨S16x40, .f32⟩ : BufTy).Contents (Elt Ideal)) (x7 : (⟨S40, .f32⟩ : BufTy).Contents (Elt Ideal))
    (h61 : V (Proc.devRef .tc main_v61) = val_main_v61 (F := Ideal) x0 x1 x2 x3 x4)
    (a5 : V (Proc.devRef .tc main_arg5) = x5) (a6 : V (Proc.devRef .tc main_arg6) = x6) (a7 : V (Proc.devRef .tc main_arg7) = x7) :
    after s7 V (Proc.devRef .tc main_v69) = val_main_v69 (F := Ideal) x0 x1 x2 x3 x4 x5 x6 x7 := by
  after_results
  simp only [cast_cast, cast_eq]
  rw [h61, a5, a6, a7]
  rfl

theorem st8_v2 (V : Valuation τ sig (Elt Ideal)) (x0 : (⟨S100000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x16, .f32⟩ : BufTy).Contents (Elt Ideal)) (x5 : (⟨S16, .f32⟩ : BufTy).Contents (Elt Ideal)) (x6 : (⟨S16x40, .f32⟩ : BufTy).Contents (Elt Ideal)) (x7 : (⟨S40, .f32⟩ : BufTy).Contents (Elt Ideal))
    (h69 : V (Proc.devRef .tc main_v69) = val_main_v69 (F := Ideal) x0 x1 x2 x3 x4 x5 x6 x7) :
    after s8 V (Proc.devRef .tc main_call3_v2) = val_main_call3_v2 (F := Ideal) x0 x1 x2 x3 x4 x5 x6 x7 := by
  after_results
  rw [h69]
  dsimp only [TRef.toBuf, TRef.ofBuf]
  repeat (first | rw [cast_cast] | rw [cast_eq])
  unfold val_main_call3_v2 val_main_call3_v1 val_main_call3_v0 val_main_call3_cst_0 val_main_call3_cst
  rfl

theorem keep_v69_s8 (V : Valuation τ sig (Elt Ideal)) : after s8 V (Proc.devRef .tc main_v69) = V (Proc.devRef .tc main_v69) := by
  after_results

theorem st9_v5 (V : Valuation τ sig (Elt Ideal)) (x0 : (⟨S100000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x16, .f32⟩ : BufTy).Contents (Elt Ideal)) (x5 : (⟨S16, .f32⟩ : BufTy).Contents (Elt Ideal)) (x6 : (⟨S16x40, .f32⟩ : BufTy).Contents (Elt Ideal)) (x7 : (⟨S40, .f32⟩ : BufTy).Contents (Elt Ideal))
    (h69 : V (Proc.devRef .tc main_v69) = val_main_v69 (F := Ideal) x0 x1 x2 x3 x4 x5 x6 x7)
    (h2 : V (Proc.devRef .tc main_call3_v2) = val_main_call3_v2 (F := Ideal) x0 x1 x2 x3 x4 x5 x6 x7) :
    after s9 V (Proc.devRef .tc main_call3_v5) = val_main_call3_v5 (F := Ideal) x0 x1 x2 x3 x4 x5 x6 x7 := by
  after_results
  rw [h69, h2]
  dsimp only [TRef.toBuf, TRef.ofBuf]
  repeat (first | rw [cast_cast] | rw [cast_eq])
  unfold val_main_call3_v5 val_main_call3_v4 val_main_call3_v3
  rfl

theorem st9_v6 (V : Valuation τ sig (Elt Ideal)) (x0 : (⟨S100000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x16, .f32⟩ : BufTy).Contents (Elt Ideal)) (x5 : (⟨S16, .f32⟩ : BufTy).Contents (Elt Ideal)) (x6 : (⟨S16x40, .f32⟩ : BufTy).Contents (Elt Ideal)) (x7 : (⟨S40, .f32⟩ : BufTy).Contents (Elt Ideal))
    (h69 : V (Proc.devRef .tc main_v69) = val_main_v69 (F := Ideal) x0 x1 x2 x3 x4 x5 x6 x7)
    (h2 : V (Proc.devRef .tc main_call3_v2) = val_main_call3_v2 (F := Ideal) x0 x1 x2 x3 x4 x5 x6 x7) :
    after s9 V (Proc.devRef .tc main_call3_v6) = val_main_call3_v6 (F := Ideal) x0 x1 x2 x3 x4 x5 x6 x7 := by
  after_results
  rw [h69, h2]
  dsimp only [TRef.toBuf, TRef.ofBuf]
  repeat (first | rw [cast_cast] | rw [cast_eq])
  unfold val_main_call3_v6 val_main_call3_v5 val_main_call3_v4 val_main_call3_v3
  rfl

theorem st9_cst1 (V : Valuation τ sig (Elt Ideal)) : after s9 V (Proc.devRef .tc main_call3_cst_1) = val_main_call3_cst_1 (F := Ideal) := by
  after_results
  dsimp only [TRef.toBuf, TRef.ofBuf]
  repeat (first | rw [cast_cast] | rw [cast_eq])
  unfold val_main_call3_cst_1
  rfl

theorem st10_v70 (V : Valuation τ sig (Elt Ideal)) (x0 : (⟨S100000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x16, .f32⟩ : BufTy).Contents (Elt Ideal)) (x5 : (⟨S16, .f32⟩ : BufTy).Contents (Elt Ideal)) (x6 : (⟨S16x40, .f32⟩ : BufTy).Contents (Elt Ideal)) (x7 : (⟨S40, .f32⟩ : BufTy).Contents (Elt Ideal))
    (h5 : V (Proc.devRef .tc main_call3_v5) = val_main_call3_v5 (F := Ideal) x0 x1 x2 x3 x4 x5 x6 x7)
    (h6 : V (Proc.devRef .tc main_call3_v6) = val_main_call3_v6 (F := Ideal) x0 x1 x2 x3 x4 x5 x6 x7)
    (hc : V (Proc.devRef .tc main_call3_cst_1) = val_main_call3_cst_1 (F := Ideal)) :
    after s10 V (Proc.devRef .tc main_v70) = val_main_v70 (F := Ideal) x0 x1 x2 x3 x4 x5 x6 x7 := by
  after_results
  rw [h5, h6, hc]
  dsimp only [TRef.toBuf, TRef.ofBuf]
  repeat (first | rw [cast_cast] | rw [cast_eq])
  unfold val_main_v70 val_main_call3_v10 val_main_call3_v9 val_main_call3_v8 val_main_call3_v7
  rfl

/-! ## The result -/

/-- After the fold the result buffer is the last stage function of the argument arrays' contents before it. -/
theorem ref_val (V : Valuation τ sig (Elt Ideal)) :
    after (ops (F := Ideal)) V (Proc.devRef .tc main_v70)
      = val_main_v70 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [after_ops]
  have h14 := st1_v14 (B1 V) _ (v12_1 V) (v13_1 V) (cst2_1 V)
  have h29 := st2_v29 (B2 V) _ (v3_2 V) (v6_2 V) h14
  have h30 := st3_v30 (B3 V) _ _ (a0_3 V) (a2_3 V)
  have h43 := st4_v43 (B4 V) _ _ _ (v3_4 V) (v6_4 V) ((keep_v29_s3 (B3 V)).trans h29) h30
  have h48 := st5_v48 (B5 V) _ _ _ _ _ h43 (a3_5 V) (a4_5 V)
  have h29' : B6 V (Proc.devRef .tc main_v29) = val_main_v29 (F := Ideal) (V (Proc.devRef .tc main_arg1)) :=
    (keep_v29_s5 (B5 V)).trans ((keep_v29_s4 (B4 V)).trans ((keep_v29_s3 (B3 V)).trans h29))
  have h61 := st6_v61 (B6 V) _ _ _ _ _ (v3_6 V) (v6_6 V) h29' h48
  have h69 := st7_v69 (B7 V) _ _ _ _ _ _ _ _ h61 (a5_7 V) (a6_7 V) (a7_7 V)
  have h2 := st8_v2 (B8 V) _ _ _ _ _ _ _ _ h69
  have h69' := (keep_v69_s8 (B8 V)).trans h69
  have h5 := st9_v5 (B9 V) _ _ _ _ _ _ _ _ h69' h2
  have h6 := st9_v6 (B9 V) _ _ _ _ _ _ _ _ h69' h2
  exact st10_v70 (B10 V) _ _ _ _ _ _ _ _ h5 h6 (st9_cst1 (B9 V))

/-- Every weakly fair execution of the reference terminates with its result at the whole network's function of the
    argument arrays, and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v70)
        = Stages.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_v70).trans ((ref_val (launchContents m c)).trans (Stages.ref_out _ _ _ _ _ _ _ _)),
        (h c main_arg0).trans ((congrFun (after_ops (launchContents m c)) _).trans (a0_11 (launchContents m c))),
        (h c main_arg1).trans ((congrFun (after_ops (launchContents m c)) _).trans (a1_11 (launchContents m c))),
        (h c main_arg2).trans ((congrFun (after_ops (launchContents m c)) _).trans (a2_11 (launchContents m c))),
        (h c main_arg3).trans ((congrFun (after_ops (launchContents m c)) _).trans (a3_11 (launchContents m c))),
        (h c main_arg4).trans ((congrFun (after_ops (launchContents m c)) _).trans (a4_11 (launchContents m c))),
        (h c main_arg5).trans ((congrFun (after_ops (launchContents m c)) _).trans (a5_11 (launchContents m c))),
        (h c main_arg6).trans ((congrFun (after_ops (launchContents m c)) _).trans (a6_11 (launchContents m c))),
        (h c main_arg7).trans ((congrFun (after_ops (launchContents m c)) _).trans (a7_11 (launchContents m c)))⟩)
    (run_seq scopedRefs_eq scopedSems_eq defs main (fun _ => ops) main_eq (fun _ => ops_sub) m ρ)

end Cert.ReferenceIdeal.RefRun

end
-- ==== Proof.lean ====
/-
  A two-layer graph-convolution network with a linear classifier and a row-wise log-softmax, as three TPU kernels
  among host operations, against its jnp reference, on the extended reals.

  Both programs compute, with `Â` the degree-normalised adjacency (self-loops added) applied by a gather along the
  edges' sources, a scaling by the edge weights and a scatter-add into the destinations:
    `log_softmax (relu (Â (relu (Â (x · W₁) + b₁) · W₂) + b₂) · W_fc + b_fc)`.
  The kernels compute the three dense pieces block of rows by block of rows — `x · W₁`; `relu (· + b₁) · W₂`; the
  classifier with its log-softmax — and the program applies `Â` between them by the very host operations the
  reference uses. On the extended reals the rounding of the matrix unit's operands to bf16 is the identity and the
  matrix unit accumulating into zero is the plain contraction, so each kernel region leaves in its output array the
  same function of its input arrays as the reference's stage, entry by entry; the log-softmax is the same shifted
  form on both sides (jax's extra maximum against `-∞` changes nothing). No law of the extended reals beyond these
  readings is needed, and the precondition is not used.
  The frames of the two kernel programs are the generated frame certificates; the reference's frame is its run with
  the result dropped; the idealization rewrote no operation, so `preserves` has nothing to state.
-/
import proofs.«164419_j34832184770970_1_alg».proof.Defs
import proofs.«164419_j34832184770970_1_alg».proof.Proof.Gen.Kernel
import proofs.«164419_j34832184770970_1_alg».proof.Proof.Gen.Kernel.Skeleton
import proofs.«164419_j34832184770970_1_alg».proof.Proof.Gen.Kernel.Launch
import proofs.«164419_j34832184770970_1_alg».proof.Proof.Gen.Kernel.Points
import proofs.«164419_j34832184770970_1_alg».proof.Proof.Gen.Kernel.Frame
import proofs.«164419_j34832184770970_1_alg».proof.Proof.Gen.KernelIdeal
import proofs.«164419_j34832184770970_1_alg».proof.Proof.Gen.KernelIdeal.Skeleton
import proofs.«164419_j34832184770970_1_alg».proof.Proof.Gen.KernelIdeal.Launch
import proofs.«164419_j34832184770970_1_alg».proof.Proof.Gen.KernelIdeal.Points
import proofs.«164419_j34832184770970_1_alg».proof.Proof.Gen.KernelIdeal.Frame
import proofs.«164419_j34832184770970_1_alg».proof.Proof.Gen.ReferenceIdeal
import proofs.«164419_j34832184770970_1_alg».proof.Proof.Gen.Pre_finite_inputs
import proofs.«164419_j34832184770970_1_alg».proof.Proof.KernelRun
import proofs.«164419_j34832184770970_1_alg».proof.Proof.HostB
import proofs.«164419_j34832184770970_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run m ρ)

/-- The idealization is the program's own text read on the extended reals: there is no rewrite to account for. -/
theorem preserves : Cert.preserves_Kernel_KernelIdeal := trivial

/-- From memories agreeing on the arguments both programs end with the whole network's function of the arguments in
    their result buffers. -/
theorem algebraic : Cert.algebraic_KernelIdeal_ReferenceIdeal := by
  intro m ρ m' ρ' _ hagree
  refine ⟨fun c => Cert.ReferenceIdeal.Stages.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostB.kernel_out m ρ c), (h c).2⟩)
      (Cert.KernelIdeal.ValueRun.run_out (F := Ideal) m ρ)
  · refine (θ_run Cert.ReferenceIdeal.defs _ _).mono (fun r h c => ⟨?_, (h c).2⟩) (Cert.ReferenceIdeal.RefRun.run m' ρ')
    obtain ⟨e0, e1, e2, e3, e4, e5, e6, e7⟩ := hagree c
    rw [(h c).1, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
